-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : IVec S8192 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192 : Shape := ⟨1, ![8192]⟩
abbrev S8192x1 : Shape := ⟨2, ![8192, 1]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩
abbrev S1x8192 : Shape := ⟨2, ![1, 8192]⟩
abbrev S512x8192 : Shape := ⟨2, ![512, 8192]⟩
abbrev S512x1 : Shape := ⟨2, ![512, 1]⟩
abbrev S512 : Shape := ⟨1, ![512]⟩

abbrev nBuf : Space → Nat
  | .hbm => 35
  | .vmem => 9
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S8192x1, .i32⟩
  | .hbm, ⟨3, _⟩ => ⟨S_, .i32⟩
  | .hbm, ⟨4, _⟩ => ⟨S8192x1, .i32⟩
  | .hbm, ⟨5, _⟩ => ⟨S8192x1, .i1⟩
  | .hbm, ⟨6, _⟩ => ⟨S_, .i32⟩
  | .hbm, ⟨7, _⟩ => ⟨S8192x1, .i32⟩
  | .hbm, ⟨8, _⟩ => ⟨S8192x1, .i32⟩
  | .hbm, ⟨9, _⟩ => ⟨S8192x1, .i32⟩
  | .hbm, ⟨10, _⟩ => ⟨S8192x1x1, .i32⟩
  | .hbm, ⟨11, _⟩ => ⟨S1, .i32⟩
  | .hbm, ⟨12, _⟩ => ⟨S_, .i32⟩
  | .hbm, ⟨13, _⟩ => ⟨S8192x1x1, .i32⟩
  | .hbm, ⟨14, _⟩ => ⟨S8192x1x1, .i1⟩
  | .hbm, ⟨15, _⟩ => ⟨S1x1x1, .i32⟩
  | .hbm, ⟨16, _⟩ => ⟨S8192x1x1, .i32⟩
  | .hbm, ⟨17, _⟩ => ⟨S8192x1x1, .i1⟩
  | .hbm, ⟨18, _⟩ => ⟨S8192x1x1, .i1⟩
  | .hbm, ⟨19, _⟩ => ⟨S_, .i1⟩
  | .hbm, ⟨20, _⟩ => ⟨S8192x1, .i1⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192, .f32⟩
  | .hbm, ⟨26, _⟩ => ⟨S8192x1, .i32⟩
  | .hbm, ⟨27, _⟩ => ⟨S1x8192, .i32⟩
  | .hbm, ⟨28, _⟩ => ⟨S8192x1, .f32⟩
  | .hbm, ⟨29, _⟩ => ⟨S8192x1, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S512x8192, .f32⟩
  | .local _ .vmem, ⟨1, _⟩ => ⟨S512x8192, .f32⟩
  | .local _ .vmem, ⟨2, _⟩ => ⟨S512x1, .i32⟩
  | .local _ .vmem, ⟨3, _⟩ => ⟨S512x1, .i32⟩
  | .local _ .vmem, ⟨4, _⟩ => ⟨S1x8192, .i32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_cst_0 : Ref sig .tc := ⟨.hbm, 33, rfl⟩
abbrev main_v9 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S8192_S8192x1_0 : S8192.BroadcastsInDim S8192x1 (![0] : Fin 1 → Fin S8192x1.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  h_S_ : 0 < S_.numel
  shapeCasts_S8192x1_S8192 : S8192x1.ShapeCasts S8192
  shapeCasts_S8192_S8192x1 : S8192.ShapeCasts S8192x1
  shapeCasts_S8192_S1x8192 : S8192.ShapeCasts S1x8192
  inb_S512x8192_S512x8192_0_0 : ∀ a, (![0, 0] : Fin 2 → Nat) a + S512x8192.size a ≤ S512x8192.size a
  h_S512x8192 : 0 < S512x8192.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S512x8192 : S1x8192.Broadcasts S512x8192
  broadcasts_S512x1_S512x8192 : S512x1.Broadcasts S512x8192
  reduces_S512x8192_S512 : S512x8192.Reduces [1] S512
  shapeCasts_S512_S512x1 : S512.ShapeCasts S512x1
  reducesTo_S8192_S_d0 : S8192.ReducesTo [0] S_
  gather_S8192x8192_S8192x1x1_S8192x1_n_1_0_0_1_2_11_wf : GatherDims.WF S8192x8192 S8192x1x1 S8192x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .i32 = 32 ∨ (Rect.block (s := S8192x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .i32 = 32 ∨ (Rect.block (s := S1x8192) S1x8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

abbrev win0_0 : Pipeline.Window sig grid0 :=
  Pipeline.Window.ofSpec (Memref.whole main_arg0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192 : Shape := ⟨1, ![8192]⟩
abbrev S8192x1 : Shape := ⟨2, ![8192, 1]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩
abbrev S1x8192 : Shape := ⟨2, ![1, 8192]⟩

abbrev nBuf : Space → Nat
  | .hbm => 55
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S8192x1, .i32⟩
  | .hbm, ⟨3, _⟩ => ⟨S_, .i32⟩
  | .hbm, ⟨4, _⟩ => ⟨S8192x1, .i32⟩
  | .hbm, ⟨5, _⟩ => ⟨S8192x1, .i1⟩
  | .hbm, ⟨6, _⟩ => ⟨S_, .i32⟩
  | .hbm, ⟨7, _⟩ => ⟨S8192x1, .i32⟩
  | .hbm, ⟨8, _⟩ => ⟨S8192x1, .i32⟩
  | .hbm, ⟨9, _⟩ => ⟨S8192x1, .i32⟩
  | .hbm, ⟨10, _⟩ => ⟨S8192x1x1, .i32⟩
  | .hbm, ⟨11, _⟩ => ⟨S1, .i32⟩
  | .hbm, ⟨12, _⟩ => ⟨S_, .i32⟩
  | .hbm, ⟨13, _⟩ => ⟨S8192x1x1, .i32⟩
  | .hbm, ⟨14, _⟩ => ⟨S8192x1x1, .i1⟩
  | .hbm, ⟨15, _⟩ => ⟨S1x1x1, .i32⟩
  | .hbm, ⟨16, _⟩ => ⟨S8192x1x1, .i32⟩
  | .hbm, ⟨17, _⟩ => ⟨S8192x1x1, .i1⟩
  | .hbm, ⟨18, _⟩ => ⟨S8192x1x1, .i1⟩
  | .hbm, ⟨19, _⟩ => ⟨S_, .i1⟩
  | .hbm, ⟨20, _⟩ => ⟨S8192x1, .i1⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192, .f32⟩
  | .hbm, ⟨26, _⟩ => ⟨S1x8192, .i32⟩
  | .hbm, ⟨27, _⟩ => ⟨S8192x1, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S8192x1, .f32⟩
  | .hbm, ⟨32, _⟩ => ⟨S8192x8192, .f32⟩
  | .hbm, ⟨33, _⟩ => ⟨S8192x8192, .i1⟩
  | .hbm, ⟨34, _⟩ => ⟨S8192x8192, .i1⟩
  | .hbm, ⟨35, _⟩ => ⟨S_, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S_, .i1⟩
  | .hbm, ⟨42, _⟩ => ⟨S8192, .i1⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_v12 : Ref sig .tc := ⟨.hbm, 38, rfl⟩
abbrev main_cst_0 : Ref sig .tc := ⟨.hbm, 39, rfl⟩
abbrev main_v13 : Ref sig .tc := ⟨.hbm, 40, rfl⟩
abbrev main_c : Ref sig .tc := ⟨.hbm, 41, rfl⟩
abbrev main_v14 : Ref sig .tc := ⟨.hbm, 42, rfl⟩
abbrev main_cst_1 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_2 : Ref sig .tc := ⟨.hbm, 47, rfl⟩
abbrev main_call2_v0 : Ref sig .tc := ⟨.hbm, 48, rfl⟩
abbrev main_call2_v1 : Ref sig .tc := ⟨.hbm, 49, rfl⟩
abbrev main_v18 : Ref sig .tc := ⟨.hbm, 50, rfl⟩
abbrev main_cst_3 : Ref sig .tc := ⟨.hbm, 51, rfl⟩
abbrev main_v19 : Ref sig .tc := ⟨.hbm, 52, rfl⟩
abbrev main_cst_4 : Ref sig .tc := ⟨.hbm, 53, rfl⟩
abbrev main_v20 : Ref sig .tc := ⟨.hbm, 54, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  h_S_ : 0 < S_.numel
  shapeCasts_S8192x1_S8192 : S8192x1.ShapeCasts S8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  gather_S8192x8192_S8192x1x1_S8192x1_n_1_0_0_1_2_11_wf : GatherDims.WF S8192x8192 S8192x1x1 S8192x1 [] [1] [0] [1] [0] 2 ![1, 1]

variable [Facts₀]

def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibSoftmaxRows.lean ====
/-
  A softmax along the rows of a matrix, read AT AN INDEX at the ideal values, for kernels and references that spell it the
  numerically careful way: subtract the row's maximum, exponentiate, divide by the row's sum, with both reductions kept as a
  column (`keepdims`) and broadcast back along the row.

  * `softmaxAt row init j`: the value — `exp (row j − M) / ∑ c, exp (row c − M)` with `M` the fold of `max` from `init`
    over the row;
  * `rowMax2_apply`: a `multi_reduction <maximumf>` over the second axis of a rank-2 vector, at a row, is that fold;
  * `hostLaneMax3_apply`: the host's one-operand reduce with a `maximum` body over the last axis of a rank-3 array, at
    (a, b), is the same fold over the lane coordinate;
  * `max_fold_max_self`: taking the maximum with the fold's own starting value once more changes nothing;
  * `softmaxRows_apply`: the whole keepdims chain of a kernel (maximum, cast to a column, broadcast, subtract, exponentiate,
    sum, cast, broadcast, divide) at (r, j) is `softmaxAt` of row r.

  Nothing here needs the entries to be finite: the two sides of a claim that both spell the softmax this way are the same
  function on the extended reals.
-/
import Idealize.ShloMosaic.PureOps.Ideal.Laws
import Idealize.ShloMosaic.Lib.Pipeline.Value
import Idealize.ShloMosaic.Lib.ValueIdx
import proofs.«162843_j31791347925635_2_alg».proof.Proof.LibKeepdims

noncomputable section

open scoped BigOperators

namespace Idealize.ShloMosaic.SoftmaxRows

open Idealize.ShloMosaic Idealize.ShloMosaic.ValueIdx

/-- The softmax of one row at position `j`, the row's maximum taken as a fold of `max` from `init`. -/
def softmaxAt {n : Nat} (row : Fin n → EReal) (init : EReal) (j : Fin n) : EReal :=
  Ideal.div (Ideal.exp (row j - (Finset.univ : Finset (Fin n)).fold max init row))
    (∑ c : Fin n, Ideal.exp (row c - (Finset.univ : Finset (Fin n)).fold max init row))

/-- The maximum of a fold of `max` with the value the fold started from is the fold. -/
theorem max_fold_max_self {ι : Type} (s : Finset ι) (b : EReal) (f : ι → EReal) :
    max b (s.fold max b f) = s.fold max b f :=
  max_eq_right ((Finset.le_fold_max b).mpr (Or.inl le_rfl))

/-- A maximum over the second axis of a rank-2 vector, at row a: the fold of `max` over the column coordinate. -/
theorem rowMax2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.maximumf.neutral φ hφ)
    (a : Fin n0) :
    multiReduction .maximumf [1] ⟨1, ![n0]⟩ v acc h hφ hacc (ix1 a)
      = (Finset.univ : Finset (Fin n1)).fold max (Ideal.ofBits φ acc) (fun c => v (ix2 a c)) :=
  (Ideal.multiReduction_maximumf_single v acc h hφ hacc (ix1 a)).trans
    (Finset.fold_congr fun c _ => congrArg v (funext fun d => Fin.ext (by
      match d with | ⟨0, _⟩ => rfl | ⟨1, _⟩ => rfl)))

/-- The host's reduce with a `maximum` body over the last axis of a rank-3 array, at (a, b): the fold of `max` from the
    initial value's element over the lane coordinate. -/
theorem hostLaneMax3_apply {n0 n1 n2 : Nat} {φ : FTy} {u : Shape} (x : (⟨3, ![n0, n1, n2]⟩ : Shape).Idx → Ideal φ)
    (init : u.Idx → Ideal φ) (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (a : Fin n0) (b : Fin n1) :
    Host.reduce (FloatOps.maximumf (F := Ideal) (φ := φ)) x init h' hu (ix2 a b)
      = (Finset.univ : Finset (Fin n2)).fold max (init (Shape.Idx.first hu)) (fun c => x (ix3 a b c)) :=
  (Host.reduce_eq_fold_single (FloatOps.maximumf (F := Ideal) (φ := φ)) x init h' h hu (ix2 a b)).trans
    (Finset.fold_congr fun c _ => congrArg x (funext fun d => Fin.ext (by
      match d with | ⟨0, _⟩ => rfl | ⟨1, _⟩ => rfl | ⟨2, _⟩ => rfl)))

/-- The keepdims softmax chain of a kernel over the rows of `s`, at (r, j): the row's maximum and the row's sum of
    exponentials each reduced to a vector, cast to a column and broadcast back along the row. -/
theorem softmaxRows_apply {n0 n1 : Nat} (s : FVec Ideal ⟨2, ![n0, n1]⟩ .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    divf (exp (subf s (broadcastTo ⟨2, ![n0, n1]⟩ (shapeCast ⟨2, ![n0, 1]⟩ (multiReduction .maximumf [1] ⟨1, ![n0]⟩ s accM hr hφ hM) hc) hb)))
        (broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb) (ix2 r j)
      = softmaxAt (fun c => s (ix2 r c)) (Ideal.ofBits .f32 accM) j := by
  have hmax : ∀ c : Fin n1, broadcastTo ⟨2, ![n0, n1]⟩ (shapeCast ⟨2, ![n0, 1]⟩ (multiReduction .maximumf [1] ⟨1, ![n0]⟩ s accM hr hφ hM) hc) hb (ix2 r c)
      = (Finset.univ : Finset (Fin n1)).fold max (Ideal.ofBits .f32 accM) (fun c => s (ix2 r c)) := fun c =>
    (Keepdims.bcast_col_apply _ hb r c).trans ((Keepdims.cast_col_apply _ hc r 0).trans (rowMax2_apply s accM hr hφ hM r))
  have hexp : ∀ c : Fin n1, exp (subf s (broadcastTo ⟨2, ![n0, n1]⟩ (shapeCast ⟨2, ![n0, 1]⟩ (multiReduction .maximumf [1] ⟨1, ![n0]⟩ s accM hr hφ hM) hc) hb)) (ix2 r c)
      = Ideal.exp (s (ix2 r c) - (Finset.univ : Finset (Fin n1)).fold max (Ideal.ofBits .f32 accM) (fun c => s (ix2 r c))) := fun c =>
    congrArg (fun m => Ideal.exp (s (ix2 r c) - m)) (hmax c)
  have hsum : broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb (ix2 r j)
      = ∑ c : Fin n1, Ideal.exp (s (ix2 r c) - (Finset.univ : Finset (Fin n1)).fold max (Ideal.ofBits .f32 accM) (fun c => s (ix2 r c))) :=
    (Keepdims.bcast_col_apply _ hb r j).trans ((Keepdims.cast_col_apply _ hc r 0).trans
      ((Keepdims.rowSum2_apply _ accS hr hφ hS r).trans (Finset.sum_congr rfl fun c _ => hexp c)))
  show Ideal.div _ _ = _
  unfold softmaxAt
  exact congrArg₂ Ideal.div (hexp j) hsum

end Idealize.ShloMosaic.SoftmaxRows

end
-- ==== Proof.LibAnyByMax.lean ====
/-
  "Some position is set", computed by a maximum.

  A kernel that takes `jnp.any` of a mask along an axis is lowered to a float reduction: the mask is turned into its
  indicator (one where set, zero elsewhere), the indicator's maximum along the axis is taken starting from minus infinity, and
  the result is compared with zero. A host program takes the "or" of the mask along the axis. At the ideal values the two are
  the same one-bit word:

  * `cmp_ogt_max`: "exceeds z" of a maximum is the "or" of "exceeds z" of the two;
  * `cmp_ogt_ind`: the indicator of a word exceeds zero exactly when the word is set;
  * `cmp_ogt_neg_inf`: minus infinity does not exceed zero;
  * `cmp_ogt_fold_max_ind`: the fold of `max` from minus infinity over a set of the indicators exceeds zero exactly when
    the fold of "or" from false over the set of the words is set.

  Stated for f32 patterns (one is 0x3F800000, zero is 0x00000000, minus infinity is 0xFF800000).
-/
import Idealize.ShloMosaic.PureOps.Ideal.Laws
import Idealize.ShloMosaic.Lib.IdealHost

noncomputable section

namespace Idealize.ShloMosaic.AnyByMax

open Idealize.ShloMosaic

/-- The f32 pattern of minus infinity is the bottom of the extended reals. -/
theorem ofBits_neg_inf_f32 : Ideal.ofBits .f32 0xFF800000#32 = ⊥ := by simp [Ideal.ofBits, Ideal.ieee]

/-- One where the word is set, zero elsewhere. -/
def ind (w : BitVec 1) : EReal :=
  Scalar.select w (Ideal.ofBits .f32 0x3F800000#32) (Ideal.ofBits .f32 0x00000000#32)

/-- "Exceeds z" of a maximum is the "or" of "exceeds z" of the two. -/
theorem cmp_ogt_max (u v z : EReal) :
    Ideal.cmp .ogt (max u v) z = IntOp.ori (Ideal.cmp .ogt u z) (Ideal.cmp .ogt v z) := by
  show BitVec.ofBool (decide (z < max u v)) = BitVec.ofBool (decide (z < u)) ||| BitVec.ofBool (decide (z < v))
  by_cases hu : z < u <;> by_cases hv : z < v <;> simp [lt_max_iff, hu, hv]

/-- The indicator of a word exceeds zero exactly when the word is set. -/
theorem cmp_ogt_ind (w : BitVec 1) : Ideal.cmp .ogt (ind w) (Ideal.ofBits .f32 0x00000000#32) = w := by
  show BitVec.ofBool (decide (Ideal.ofBits .f32 0x00000000#32 < ind w)) = w
  rcases BitVec.eq_zero_or_eq_one w with h | h <;> subst h <;>
    simp [ind, Scalar.select, Ideal.ofBits_zero_f32, Ideal.ofBits_one_f32]

/-- Minus infinity does not exceed zero. -/
theorem cmp_ogt_neg_inf : Ideal.cmp .ogt (Ideal.ofBits .f32 0xFF800000#32) (Ideal.ofBits .f32 0x00000000#32) = 0#1 := by
  show BitVec.ofBool (decide (Ideal.ofBits .f32 0x00000000#32 < Ideal.ofBits .f32 0xFF800000#32)) = 0#1
  rw [ofBits_neg_inf_f32, Ideal.ofBits_zero_f32]
  simp

/-- The maximum of the indicators over a set, from minus infinity, exceeds zero exactly when the "or" of the words
    over the set is set. -/
theorem cmp_ogt_fold_max_ind {ι : Type} [DecidableEq ι] (s : Finset ι) (f : ι → BitVec 1) :
    Ideal.cmp .ogt (s.fold max (Ideal.ofBits .f32 0xFF800000#32) fun j => ind (f j)) (Ideal.ofBits .f32 0x00000000#32)
      = s.fold IntOp.ori 0#1 f := by
  induction s using Finset.induction_on with
  | empty => rw [Finset.fold_empty, Finset.fold_empty]; exact cmp_ogt_neg_inf
  | insert a s ha ih => rw [Finset.fold_insert ha, Finset.fold_insert ha, cmp_ogt_max, cmp_ogt_ind, ih]

end Idealize.ShloMosaic.AnyByMax

end
-- ==== Proof.RowMath.lean ====
/-
  The mathematics of one row of the ranking loss, on the extended reals.

  Row i of the probability matrix has a threshold p (the probability of the row's own label). Column j is SELECTED when
  its label differs from the row's label and its entry exceeds p. The row contributes

      p / (sum of the selected entries + eps)   if some column is selected,      0 otherwise.

  "Some column is selected" is the fold of "or" over the row's selection words; a kernel that computes it as "the maximum
  over the row of the selection's indicator, from minus infinity, exceeds zero" computes the same word
  (`cmp_ogt_fold_max_ind`, from the library module beside this one).
-/
import proofs.«162843_j31791347925635_2_alg».proof.Proof.LibAnyByMax

noncomputable section

open scoped BigOperators

namespace Cert.MaskedRows

open Idealize.ShloMosaic

export Idealize.ShloMosaic.AnyByMax (ind cmp_ogt_max cmp_ogt_ind cmp_ogt_neg_inf cmp_ogt_fold_max_ind)

/-- Column j's selection word in a row whose label is `li` and whose threshold is `p`: the labels differ and the entry
    exceeds the threshold. -/
def selWord (lj li : BitVec 32) (x p : EReal) : BitVec 1 :=
  IntOp.andi (IntOp.cmpi .ne lj li) (Ideal.cmp .ogt x p)

/-- The row's contribution: its threshold over the sum of the selected entries plus eps when some column is selected,
    zero otherwise. -/
def rowTerm {n : Nat} (lab : Fin n → BitVec 32) (li : BitVec 32) (x : Fin n → EReal) (p : EReal) : EReal :=
  Scalar.select ((Finset.univ : Finset (Fin n)).fold IntOp.ori 0#1 fun j => selWord (lab j) li (x j) p)
    (Ideal.div p ((∑ j : Fin n, Scalar.select (selWord (lab j) li (x j) p) (x j) (Ideal.ofBits .f32 0x00000000#32))
      + Ideal.ofBits .f32 0x2EDBE6FF#32))
    (Ideal.ofBits .f32 0x00000000#32)

end Cert.MaskedRows

end
-- ==== Proof.BlockRows.lean ====
/-
  What the kernel's body computes for one block of 512 rows, read at a row.

  The body sees a block of the probability matrix (512 rows, all 8192 columns), the 512 labels of its rows as a column, all
  8192 labels as one row, and the 512 thresholds of its rows as a column. It forms the selection words of the block (labels
  differ and the entry exceeds the row's threshold), sums the selected entries along each row, takes along each row the
  maximum of the indicator of the selection (from minus infinity) and compares it with zero, and stores, per row, the
  threshold over (sum + eps) where that comparison holds and zero elsewhere. Read at row r this is `rowTerm` of the row:
  the sum is the sum over the columns, and the comparison is the "or" of the row's selection words.
-/
import proofs.«162843_j31791347925635_2_alg».proof.Proof.Gen.KernelIdeal.Skeleton
import proofs.«162843_j31791347925635_2_alg».proof.Proof.LibSoftmaxRows
import proofs.«162843_j31791347925635_2_alg».proof.Proof.RowMath
import Idealize.ShloMosaic.Lib.ValueLayout
import Idealize.ShloMosaic.Lib.Pipeline.Value

noncomputable section

open scoped BigOperators

namespace Cert.KernelIdeal.BlockRows

open Cert.KernelIdeal Cert.KernelIdeal.Gen Idealize.ShloMosaic Idealize.ShloMosaic.ValueIdx Cert.MaskedRows

/-- The selection words of a block: column j of row r is selected when label j differs from the row's label and the
    entry exceeds the row's threshold. -/
def selBlk (v0 : FVec Ideal S512x8192 .f32) (v2 : IVec S512x1 32) (v4 : IVec S1x8192 32) (v6 : FVec Ideal S512x1 .f32) :
    IVec S512x8192 1 :=
  andi (cmpi .ne (broadcastTo S512x8192 v4 broadcasts_S1x8192_S512x8192) (broadcastTo S512x8192 v2 broadcasts_S512x1_S512x8192))
    (cmpf .ogt v0 (broadcastTo S512x8192 v6 broadcasts_S512x1_S512x8192))

/-- The selection word at (r, c): of the label of column c, the label and the threshold of row r, and the entry. -/
theorem selBlk_apply (v0 : FVec Ideal S512x8192 .f32) (v2 : IVec S512x1 32) (v4 : IVec S1x8192 32) (v6 : FVec Ideal S512x1 .f32)
    (r : Fin 512) (c : Fin 8192) :
    selBlk v0 v2 v4 v6 (ix2 r c)
      = selWord (v4 (ix2 (0 : Fin 1) c)) (v2 (ix2 r (0 : Fin 1))) (v0 (ix2 r c)) (v6 (ix2 r (0 : Fin 1))) := by
  show IntOp.andi (IntOp.cmpi .ne (broadcastTo S512x8192 v4 broadcasts_S1x8192_S512x8192 (ix2 r c))
        (broadcastTo S512x8192 v2 broadcasts_S512x1_S512x8192 (ix2 r c)))
      (Ideal.cmp .ogt (v0 (ix2 r c)) (broadcastTo S512x8192 v6 broadcasts_S512x1_S512x8192 (ix2 r c))) = _
  rw [broadcastTo_1b_ab_apply v4 broadcasts_S1x8192_S512x8192 r c, Keepdims.bcast_col_apply v2 broadcasts_S512x1_S512x8192 r c,
    Keepdims.bcast_col_apply v6 broadcasts_S512x1_S512x8192 r c]
  rfl

/-- The indicator of the selection: one where selected, zero elsewhere. -/
def indBlk (v0 : FVec Ideal S512x8192 .f32) (v2 : IVec S512x1 32) (v4 : IVec S1x8192 32) (v6 : FVec Ideal S512x1 .f32) :
    FVec Ideal S512x8192 .f32 :=
  select (selBlk v0 v2 v4 v6) (broadcast S512x8192 (Scalar.ofBits (F := Ideal) .f32 0x3F800000#32))
    (broadcast S512x8192 (Scalar.ofBits (F := Ideal) .f32 0x00000000#32))

/-- The selected entries: the entry where selected, zero elsewhere. -/
def keptBlk (v0 : FVec Ideal S512x8192 .f32) (v2 : IVec S512x1 32) (v4 : IVec S1x8192 32) (v6 : FVec Ideal S512x1 .f32) :
    FVec Ideal S512x8192 .f32 :=
  select (selBlk v0 v2 v4 v6) v0 (broadcast S512x8192 (Scalar.ofBits (F := Ideal) .f32 0x00000000#32))

/-- Per row, whether the maximum of the selection's indicator along the row, from minus infinity, exceeds zero. -/
def anyVec (v0 : FVec Ideal S512x8192 .f32) (v2 : IVec S512x1 32) (v4 : IVec S1x8192 32) (v6 : FVec Ideal S512x1 .f32) :
    IVec S512x1 1 :=
  shapeCast S512x1
    (cmpf .ogt
      (multiReduction .maximumf [1] S512 (indBlk v0 v2 v4 v6) 0xFF800000#32 reduces_S512x8192_S512 (.inl rfl) rfl)
      (broadcast S512 (Scalar.ofBits (F := Ideal) .f32 0x00000000#32)))
    shapeCasts_S512_S512x1

/-- Per row, the sum of the selected entries along the row. -/
def sumVec (v0 : FVec Ideal S512x8192 .f32) (v2 : IVec S512x1 32) (v4 : IVec S1x8192 32) (v6 : FVec Ideal S512x1 .f32) :
    FVec Ideal S512x1 .f32 :=
  shapeCast S512x1
    (multiReduction .add [1] S512 (keptBlk v0 v2 v4 v6) 0x00000000#32 reduces_S512x8192_S512 (.inl rfl) rfl)
    shapeCasts_S512_S512x1

/-- The body's stored value from the three reshaped operands: the printed sequence of operations as one term. -/
def payOf (v0 : FVec Ideal S512x8192 .f32) (v2 : IVec S512x1 32) (v4 : IVec S1x8192 32) (v6 : FVec Ideal S512x1 .f32) :
    FVec Ideal S512x1 .f32 :=
  select (anyVec v0 v2 v4 v6)
    (divf v6 (addf (sumVec v0 v2 v4 v6) (broadcast S512x1 (Scalar.ofBits (F := Ideal) .f32 0x2EDBE6FF#32))))
    (broadcast S512x1 (Scalar.ofBits (F := Ideal) .f32 0x00000000#32))

/-- The body's payload is that term of its loaded blocks, each reshaped to its own shape. -/
theorem pay_eq (x0 : Vec Ideal S512x8192 .f32) (x1 : Vec Ideal S512x1 .i32) (x2 : Vec Ideal S1x8192 .i32) (x3 : Vec Ideal S512x1 .f32) :
    k0_pay1 (F := Ideal) x0 x1 x2 x3
      = payOf x0 (shapeCast S512x1 x1 shapeCasts_S512x1_S512x1) (shapeCast S1x8192 x2 shapeCasts_S1x8192_S1x8192)
          (shapeCast S512x1 x3 shapeCasts_S512x1_S512x1) := by
  delta payOf anyVec sumVec indBlk keptBlk selBlk k0_pay1
  rfl

/-- The row's maximum of the indicator exceeds zero exactly when some column of the row is selected. -/
theorem anyVec_apply (v0 : FVec Ideal S512x8192 .f32) (v2 : IVec S512x1 32) (v4 : IVec S1x8192 32) (v6 : FVec Ideal S512x1 .f32)
    (r : Fin 512) :
    anyVec v0 v2 v4 v6 (ix2 r (0 : Fin 1))
      = (Finset.univ : Finset (Fin 8192)).fold IntOp.ori 0#1 fun j =>
          selWord (v4 (ix2 (0 : Fin 1) j)) (v2 (ix2 r (0 : Fin 1))) (v0 (ix2 r j)) (v6 (ix2 r (0 : Fin 1))) := by
  have hsel := selBlk_apply v0 v2 v4 v6 r
  unfold anyVec
  refine (Keepdims.cast_col_apply _ shapeCasts_S512_S512x1 r 0).trans ?_
  refine (cmpf_apply .ogt _ _ (ix1 r)).trans ?_
  refine (congrArg (fun u : EReal => Ideal.cmp .ogt u (Ideal.ofBits .f32 0x00000000#32))
    (SoftmaxRows.rowMax2_apply (φ := .f32) (indBlk v0 v2 v4 v6) 0xFF800000#32 reduces_S512x8192_S512 (.inl rfl) rfl r)).trans ?_
  refine (congrArg (fun f : Fin 8192 → EReal => Ideal.cmp .ogt
      ((Finset.univ : Finset (Fin 8192)).fold max (Ideal.ofBits .f32 0xFF800000#32) f) (Ideal.ofBits .f32 0x00000000#32))
    (funext fun c => ?_)).trans (cmp_ogt_fold_max_ind _ fun j =>
      selWord (v4 (ix2 (0 : Fin 1) j)) (v2 (ix2 r (0 : Fin 1))) (v0 (ix2 r j)) (v6 (ix2 r (0 : Fin 1))))
  unfold indBlk
  refine (select_apply _ _ _ (ix2 r c)).trans ?_
  rw [hsel c]
  rfl

/-- The row's sum of the selected entries. -/
theorem sumVec_apply (v0 : FVec Ideal S512x8192 .f32) (v2 : IVec S512x1 32) (v4 : IVec S1x8192 32) (v6 : FVec Ideal S512x1 .f32)
    (r : Fin 512) :
    sumVec v0 v2 v4 v6 (ix2 r (0 : Fin 1))
      = ∑ j : Fin 8192, Scalar.select (selWord (v4 (ix2 (0 : Fin 1) j)) (v2 (ix2 r (0 : Fin 1))) (v0 (ix2 r j)) (v6 (ix2 r (0 : Fin 1))))
          (v0 (ix2 r j)) (Ideal.ofBits .f32 0x00000000#32) := by
  have hsel := selBlk_apply v0 v2 v4 v6 r
  unfold sumVec
  refine (Keepdims.cast_col_apply _ shapeCasts_S512_S512x1 r 0).trans ?_
  refine (Keepdims.rowSum2_apply (φ := .f32) (keptBlk v0 v2 v4 v6) 0x00000000#32 reduces_S512x8192_S512 (.inl rfl) rfl r).trans ?_
  refine Finset.sum_congr rfl fun c _ => ?_
  unfold keptBlk
  refine (select_apply _ _ _ (ix2 r c)).trans ?_
  rw [hsel c]
  rfl

/-- The stored value at row r: the row's contribution. -/
theorem payOf_apply (v0 : FVec Ideal S512x8192 .f32) (v2 : IVec S512x1 32) (v4 : IVec S1x8192 32) (v6 : FVec Ideal S512x1 .f32)
    (r : Fin 512) :
    payOf v0 v2 v4 v6 (ix2 r (0 : Fin 1))
      = rowTerm (fun j : Fin 8192 => v4 (ix2 (0 : Fin 1) j)) (v2 (ix2 r (0 : Fin 1))) (fun j : Fin 8192 => v0 (ix2 r j))
          (v6 (ix2 r (0 : Fin 1))) := by
  unfold payOf
  show Scalar.select (anyVec v0 v2 v4 v6 (ix2 r (0 : Fin 1)))
      (Ideal.div (v6 (ix2 r (0 : Fin 1))) (sumVec v0 v2 v4 v6 (ix2 r (0 : Fin 1)) + Ideal.ofBits .f32 0x2EDBE6FF#32))
      (Ideal.ofBits .f32 0x00000000#32) = _
  rw [anyVec_apply, sumVec_apply]
  rfl

/-- The body's payload at row r of its block. -/
theorem pay_apply (x0 : Vec Ideal S512x8192 .f32) (x1 : Vec Ideal S512x1 .i32) (x2 : Vec Ideal S1x8192 .i32) (x3 : Vec Ideal S512x1 .f32)
    (r : Fin 512) :
    k0_pay1 (F := Ideal) x0 x1 x2 x3 (ix2 r (0 : Fin 1))
      = rowTerm (fun j : Fin 8192 => x2 (ix2 (0 : Fin 1) j)) (x1 (ix2 r (0 : Fin 1))) (fun j : Fin 8192 => x0 (ix2 r j))
          (x3 (ix2 r (0 : Fin 1))) := by
  rw [pay_eq, shapeCast_self x1, shapeCast_self x2, shapeCast_self x3]
  exact payOf_apply x0 x1 x2 x3 r

end Cert.KernelIdeal.BlockRows

end
-- ==== Proof.KernelArray.lean ====
/-
  From blocks to the array: what the kernel's region leaves in its result array.

  The grid has 16 points; point t stages rows 512 t … 512 t + 511 of the probability matrix, of the label column and of the
  threshold column, and the whole label row, and writes back rows 512 t … 512 t + 511 of the result column. What point t
  writes back at row r of its block is the contribution of row 512 t + r of the whole arrays (`rowsOf`), and the 16
  blocks tile the 8192 rows, so the result column ends holding `rowsOf` of the arrays as the region finds them.
-/
import proofs.«162843_j31791347925635_2_alg».proof.Proof.Gen.KernelIdeal.Frame
import proofs.«162843_j31791347925635_2_alg».proof.Proof.BlockRows
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.RowArray

open Cert.KernelIdeal Cert.KernelIdeal.Gen Idealize.ShloMosaic.ValueIdx Cert.MaskedRows

variable (m : (ℓ : Loc nD τ sig) → Buf (Elt Ideal) ℓ) (ρ : Dev nD → PrngReg)

theorem hz : (![0, 0] : Fin 2 → Nat) = fun _ => 0 := funext fun a => by fin_cases a <;> rfl

/-- Row i's contribution from the whole arrays: the probability matrix, the labels as a column and as a row, and the
    thresholds as a column. -/
def rowsOf (A : S8192x8192.Idx → EReal) (Lc : S8192x1.Idx → BitVec 32) (Lr : S1x8192.Idx → BitVec 32)
    (Pc : S8192x1.Idx → EReal) : S8192x1.Idx → EReal := fun i =>
  rowTerm (fun j : Fin 8192 => Lr (ix2 (0 : Fin 1) j)) (Lc (ix2 (⟨(i 0).val, idx2_lt0 i⟩ : Fin 8192) (0 : Fin 1)))
    (fun j : Fin 8192 => A (ix2 (⟨(i 0).val, idx2_lt0 i⟩ : Fin 8192) j)) (Pc (ix2 (⟨(i 0).val, idx2_lt0 i⟩ : Fin 8192) (0 : Fin 1)))

/-- Equal rows give equal contributions. -/
theorem rowTerm_congr {n : Nat} {lab lab' : Fin n → BitVec 32} {li li' : BitVec 32} {x x' : Fin n → EReal} {p p' : EReal}
    (h1 : lab = lab') (h2 : li = li') (h3 : x = x') (h4 : p = p') : rowTerm lab li x p = rowTerm lab' li' x' p' := by
  subst h1 h2 h3 h4; rfl

/-- The printed index maps over the grid: the row-blocked windows are at block (t, 0), the label row at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## Each input block as rows of its array -/

/-- Row r of the probability block at point t is row 512 t + r of the matrix. -/
theorem blk0_apply (c : Dev nD) (t : Fin cfg0.N) (r : Fin 512) (j : Fin 8192) (a : Fin 8192) (ha : a.val = t.val * 512 + r.val) :
    (iblk m c 0 t : Vec Ideal S512x8192 .f32) (ix2 r j) = (V m c main_arg0 : S8192x8192.Idx → EReal) (ix2 a j) := by
  obtain ⟨e0, e1, -⟩ := idx_facts t
  unfold iblk
  rw [View.read_apply]
  show V m c main_arg0 _ = V m c main_arg0 _
  congr 1
  funext d
  apply Fin.ext
  match d with
  | ⟨0, _⟩ => show win0_0.index t (0 : Fin 2) * 512 + 1 * r.val = a.val; rw [e0, ha]; omega
  | ⟨1, _⟩ => show win0_0.index t (1 : Fin 2) * 8192 + 1 * j.val = j.val; rw [e1]; omega

/-- Row r of the label-column block at point t is row 512 t + r of the label column. -/
theorem blk1_apply (c : Dev nD) (t : Fin cfg0.N) (r : Fin 512) (a : Fin 8192) (ha : a.val = t.val * 512 + r.val) :
    (iblk m c 1 t : Vec Ideal S512x1 .i32) (ix2 r (0 : Fin 1)) = (V m c main_v3 : S8192x1.Idx → BitVec 32) (ix2 a (0 : Fin 1)) := by
  obtain ⟨-, -, e0, e1, -⟩ := idx_facts t
  unfold iblk
  rw [View.read_apply]
  show V m c main_v3 _ = V m c main_v3 _
  congr 1
  funext d
  apply Fin.ext
  match d with
  | ⟨0, _⟩ => show win0_1.index t (0 : Fin 2) * 512 + 1 * r.val = a.val; rw [e0, ha]; omega
  | ⟨1, _⟩ => show win0_1.index t (1 : Fin 2) * 1 + 1 * 0 = 0; rw [e1]

/-- The label-row block at any point is the whole label row. -/
theorem blk2_apply (c : Dev nD) (t : Fin cfg0.N) (j : Fin 8192) :
    (iblk m c 2 t : Vec Ideal S1x8192 .i32) (ix2 (0 : Fin 1) j) = (V m c main_v4 : S1x8192.Idx → BitVec 32) (ix2 (0 : Fin 1) j) := by
  obtain ⟨-, -, -, -, e0, e1, -⟩ := idx_facts t
  unfold iblk
  rw [View.read_apply]
  show V m c main_v4 _ = V m c main_v4 _
  congr 1
  funext d
  apply Fin.ext
  match d with
  | ⟨0, _⟩ => show win0_2.index t (0 : Fin 2) * 1 + 1 * 0 = 0; rw [e0]
  | ⟨1, _⟩ => show win0_2.index t (1 : Fin 2) * 8192 + 1 * j.val = j.val; rw [e1]; omega

/-- Row r of the threshold block at point t is row 512 t + r of the threshold column. -/
theorem blk3_apply (c : Dev nD) (t : Fin cfg0.N) (r : Fin 512) (a : Fin 8192) (ha : a.val = t.val * 512 + r.val) :
    (iblk m c 3 t : Vec Ideal S512x1 .f32) (ix2 r (0 : Fin 1)) = (V m c main_v5 : S8192x1.Idx → EReal) (ix2 a (0 : Fin 1)) := by
  obtain ⟨-, -, -, -, -, -, e0, e1, -⟩ := idx_facts t
  unfold iblk
  rw [View.read_apply]
  show V m c main_v5 _ = V m c main_v5 _
  congr 1
  funext d
  apply Fin.ext
  match d with
  | ⟨0, _⟩ => show win0_3.index t (0 : Fin 2) * 512 + 1 * r.val = a.val; rw [e0, ha]; omega
  | ⟨1, _⟩ => show win0_3.index t (1 : Fin 2) * 1 + 1 * 0 = 0; rw [e1]

/-! ## What a point writes back, and the array after the run -/

/-- WHAT POINT t WRITES BACK is block t of `rowsOf` of the arrays as the region finds them. -/
theorem flushed_eq (c : Dev nD) (t : Fin cfg0.N) :
    (dats m 0 c).flushed 4 t = ((cfg0.win 4).blk t).view.read (Elt Ideal)
      (rowsOf (V m c main_arg0) (V m c main_v3) (V m c main_v4) (V m c main_v5)) := by
  show (cfg0.win 4).cut (grid0.coords t) ((dats m 0 c).after 4 t) = _
  rw [after0_4]
  unfold out0_4
  rw [View.canon_unit_zero hz]
  simp only [View.ld_unit_zero (S := S512x8192) hz, View.ld_unit_zero (S := S512x1) hz, View.ld_unit_zero (S := S1x8192) hz]
  obtain ⟨-, -, -, -, -, -, -, -, e40, e41⟩ := idx_facts t
  funext y
  obtain ⟨r, z, rfl⟩ : ∃ (r : Fin 512) (z : Fin 1), y = ix2 r z := ⟨y 0, y 1, eq_ix2 y⟩
  obtain rfl : z = 0 := Subsingleton.elim _ _
  refine (BlockRows.pay_apply (iblk m c 0 t) (iblk m c 1 t) (iblk m c 2 t) (iblk m c 3 t) r).trans ?_
  have ha : (((cfg0.win 4).blk t).view.emb (ix2 r (0 : Fin 1)) 0).val = t.val * 512 + r.val := by
    show win0_4.index t (0 : Fin 2) * 512 + 1 * r.val = _
    rw [e40]; omega
  exact rowTerm_congr (funext fun j => blk2_apply m c t j) (blk1_apply m c t r _ ha) (funext fun j => blk0_apply m c t r j _ ha)
    (blk3_apply m c t r _ ha)

/-- An index of the result column is in point t's block iff each coordinate is in the block's range on its axis. -/
theorem mem_blk (t : Fin cfg0.N) (i : S8192x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v6).slice (win0_4.rect t)).set ↔ _
  rw [View.set_slice_whole, Rect.mem_set_unit]
  exact Iff.rfl

/-- Row i of the result column is in the block of point i / 512. -/
theorem cover (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  have hN : grid0.N = 16 := N_0
  have ht : (i 0).val / 512 < cfg0.N := by show (i 0).val / 512 < grid0.N; rw [hN]; omega
  obtain ⟨-, -, -, -, -, -, -, -, e40, e41⟩ := idx_facts ⟨(i 0).val / 512, ht⟩
  refine ⟨⟨(i 0).val / 512, ht⟩, flush0_4 _, ?_⟩
  rw [mem_blk]
  intro a
  match a with
  | ⟨0, _⟩ =>
    show win0_4.index ⟨(i 0).val / 512, ht⟩ (0 : Fin 2) * 512 ≤ (i 0).val ∧ (i 0).val < win0_4.index ⟨(i 0).val / 512, ht⟩ (0 : Fin 2) * 512 + 512
    rw [e40]; show (i 0).val / 512 * 512 ≤ (i 0).val ∧ (i 0).val < (i 0).val / 512 * 512 + 512; omega
  | ⟨1, _⟩ =>
    show win0_4.index ⟨(i 0).val / 512, ht⟩ (1 : Fin 2) * 1 ≤ (i 1).val ∧ (i 1).val < win0_4.index ⟨(i 0).val / 512, ht⟩ (1 : Fin 2) * 1 + 1
    rw [e41]; omega

/-- THE RESULT COLUMN after the run: `rowsOf` of the arrays as the region finds them. -/
theorem final (c : Dev nD) :
    (dats m 0 c).arrAt 4 cfg0.N = rowsOf (V m c main_arg0) (V m c main_v3) (V m c main_v4) (V m c main_v5) :=
  (dats m 0 c).arrAt_eq_of_cover 4 _ (fun t _ => flushed_eq m c t) cover

end Cert.KernelIdeal.RowArray

end
-- ==== Proof.KernelHost.lean ====
/-
  The host side of the kernel's program.

  Before the region the program gathers each row's threshold — the same chain of operations as the reference's, here `pOf`
  in this program's vocabulary, never opened — and reshapes it, and the labels, into the columns and the row the region
  stages. After the region it reshapes the result column to a vector, sums it and divides by 8192 (`meanOf`). This module
  reads the arrays the region finds and the program's result as those terms of the two arguments.
-/
import proofs.«162843_j31791347925635_2_alg».proof.Proof.Gen.KernelIdeal.Frame
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]

/-- Each row's threshold: the probability at the row's own label (jax's `take_along_axis`, with its index
    normalisation and its fill for an index out of range), as a vector over the rows. -/
def pOf (x0 : (⟨S8192x8192, .f32⟩ : BufTy).Contents (Elt F)) (x1 : (⟨S8192, .i32⟩ : BufTy).Contents (Elt F)) : (⟨S8192, .f32⟩ : BufTy).Contents (Elt F) :=
  (shapeCast _ (select (Host.reduce IntOp.andi (andi (cmpi .sge (shapeCast _ (select (cmpi .slt (broadcastInDim S8192x1 ![0] bcast_S8192_S8192x1_0 x1) (broadcastInDim S8192x1 ![] bcast_S_S8192x1 (constantI S_ 32 0#32))) (addi (broadcastInDim S8192x1 ![0] bcast_S8192_S8192x1_0 x1) (broadcastInDim S8192x1 ![] bcast_S_S8192x1 (constantI S_ 32 8192#32))) (broadcastInDim S8192x1 ![0] bcast_S8192_S8192x1_0 x1)) shapeCasts_S8192x1_S8192x1x1) (broadcastInDim S8192x1x1 ![] bcast_S_S8192x1x1 (constantI S_ 32 0#32))) (cmpi .sle (shapeCast _ (select (cmpi .slt (broadcastInDim S8192x1 ![0] bcast_S8192_S8192x1_0 x1) (broadcastInDim S8192x1 ![] bcast_S_S8192x1 (constantI S_ 32 0#32))) (addi (broadcastInDim S8192x1 ![0] bcast_S8192_S8192x1_0 x1) (broadcastInDim S8192x1 ![] bcast_S_S8192x1 (constantI S_ 32 8192#32))) (broadcastInDim S8192x1 ![0] bcast_S8192_S8192x1_0 x1)) shapeCasts_S8192x1_S8192x1x1) (broadcastInDim S8192x1x1 ![0, 1, 2] bcast_S1x1x1_S8192x1x1_0_1_2 (broadcastInDim S1x1x1 ![2] bcast_S1_S1x1x1_2 (constantI S1 32 8191#32))))) (constantI S_ 1 1#1) reducesTo_S8192x1x1_S8192x1_d2 h_S_) (Host.gather gather_S8192x8192_S8192x1x1_S8192x1_n_1_0_0_1_2_11 x0 (shapeCast _ (select (cmpi .slt (broadcastInDim S8192x1 ![0] bcast_S8192_S8192x1_0 x1) (broadcastInDim S8192x1 ![] bcast_S_S8192x1 (constantI S_ 32 0#32))) (addi (broadcastInDim S8192x1 ![0] bcast_S8192_S8192x1_0 x1) (broadcastInDim S8192x1 ![] bcast_S_S8192x1 (constantI S_ 32 8192#32))) (broadcastInDim S8192x1 ![0] bcast_S8192_S8192x1_0 x1)) shapeCasts_S8192x1_S8192x1x1)) (broadcastInDim S8192x1 ![] bcast_S_S8192x1 (constant S_ .f32 0x7FC00000#32))) shapeCasts_S8192x1_S8192)

/-- The sum of the rows' contributions over 8192. -/
def meanOf (y : (⟨S8192, .f32⟩ : BufTy).Contents (Elt F)) : (⟨S_, .f32⟩ : BufTy).Contents (Elt F) :=
  Host.divf (Host.reduceAdd y (constant S_ .f32 0x00000000#32) reducesTo_S8192_S_d0 h_S_) (constant S_ .f32 0x46000000#32)

variable (m : (ℓ : Loc nD τ sig) → Buf (Elt F) ℓ)

/-! ## The arrays the region finds -/

/-- The label column the region stages is the label vector reshaped. -/
theorem V_v3 (c : Dev nD) :
    V m c main_v3 = shapeCast S8192x1 (m ((c : Thread nD τ).loc main_arg1)) shapeCasts_S8192_S8192x1 := by
  dsimp only [Gen.V, Gen.V0]
  simp only [Gen.hostOps0, Gen.hostOps0_1, Gen.hostOps0_2, List.flatten_cons, List.flatten_nil, List.append_nil, List.cons_append,
    List.nil_append]
  after_results_simp
  rfl

/-- The label row the region stages is the label vector reshaped. -/
theorem V_v4 (c : Dev nD) :
    V m c main_v4 = shapeCast S1x8192 (m ((c : Thread nD τ).loc main_arg1)) shapeCasts_S8192_S1x8192 := by
  dsimp only [Gen.V, Gen.V0]
  simp only [Gen.hostOps0, Gen.hostOps0_1, Gen.hostOps0_2, List.flatten_cons, List.flatten_nil, List.append_nil, List.cons_append,
    List.nil_append]
  after_results_simp
  rfl

/-- The threshold column the region stages is the threshold vector reshaped. -/
theorem V_v5 (c : Dev nD) :
    V m c main_v5 = shapeCast S8192x1 (pOf (m ((c : Thread nD τ).loc main_arg0)) (m ((c : Thread nD τ).loc main_arg1)))
      shapeCasts_S8192_S8192x1 := by
  dsimp only [Gen.V, Gen.V0]
  simp only [Gen.hostOps0, Gen.hostOps0_1, Gen.hostOps0_2, List.flatten_cons, List.flatten_nil, List.append_nil, List.cons_append,
    List.nil_append]
  after_results_simp
  simp only [TRef.toBuf, TRef.ofBuf, cast_eq]
  unfold pOf
  rfl

/-! ## The program's result from the region's result column -/

/-- After the region the result is the mean of the result column reshaped to a vector. -/
theorem tail_v9 (c : Dev nD) :
    Pipeline.afterTail₀ cfgs (dats m) 0 (V0 m) [hostOps1] c main_v9
      = meanOf (shapeCast S8192 ((dats m 0 c).arrAt 4 cfg0.N) shapeCasts_S8192x1_S8192) := by
  have e : Pipeline.withArrays spec0 c (V0 m c) (fun w => (dats m 0 c).arrAt w cfg0.N) (Proc.devRef .tc main_v6)
      = (dats m 0 c).arrAt 4 cfg0.N := Pipeline.withArrays_arr spec0 launch0.win.arr_inj c _ _ 4
  unfold Pipeline.afterTail₀
  show StableHlo.after hostOps1 _ (Proc.devRef .tc main_v9) = _
  after_results_simp
  rw [e]
  unfold meanOf
  rfl

end Cert.KernelIdeal.HostSide

end
-- ==== Proof.KernelRun.lean ====
/-
  The kernel's program, run and read: its result is the mean of the rows' contributions.

  The generated frame run leaves the region's result column at what the proof data computes and every other buffer as the
  host lines after the region leave it. Read with the arrays the region finds (the probability matrix itself, the labels
  reshaped to a column and to a row, the thresholds reshaped to a column) the result column is `rowsOf` of them, and the
  program's result is `meanOf` of that column reshaped to a vector.
-/
import proofs.«162843_j31791347925635_2_alg».proof.Proof.KernelArray
import proofs.«162843_j31791347925635_2_alg».proof.Proof.KernelHost

noncomputable section

namespace Cert.KernelIdeal.KernelRun

open Cert.KernelIdeal Cert.KernelIdeal.Gen Idealize.ShloMosaic Idealize.ShloMosaic.TcCoe Idealize.SL.Sem
open Cert.KernelIdeal.RowArray Cert.KernelIdeal.HostSide

variable (m : (ℓ : Loc nD τ sig) → Buf (Elt Ideal) ℓ) (ρ : Dev nD → PrngReg)

/-- The program's result as a function of its two arguments. -/
def kernelOut (x0 : FVec Ideal S8192x8192 .f32) (x1 : IVec S8192 32) : FVec Ideal S_ .f32 :=
  meanOf (F := Ideal)
    (shapeCast S8192
      (rowsOf x0 (shapeCast S8192x1 x1 shapeCasts_S8192_S8192x1) (shapeCast S1x8192 x1 shapeCasts_S8192_S1x8192)
        (shapeCast S8192x1 (pOf (F := Ideal) x0 x1) shapeCasts_S8192_S8192x1))
      shapeCasts_S8192x1_S8192)

/-- The result buffer after the host lines that follow the region. -/
theorem result_eq (c : Dev nD) :
    Pipeline.afterTail₀ cfgs (dats m) 0 (V0 m) [hostOps1] c main_v9
      = kernelOut (m ((c : Thread nD τ).loc main_arg0)) (m ((c : Thread nD τ).loc main_arg1)) := by
  rw [tail_v9 m c, final m c, V_main_arg0 m c, V_v3 m c, V_v4 m c, V_v5 m c]
  rfl

/-- On every device, from any memory with zero counters: every weakly fair execution of @main terminates with the result at
    `kernelOut` of the arguments and the arguments unchanged. -/
theorem run : θ_run defs (onTc (τ := τ) (main (F := Ideal))) ⟨m, fun _ => 0, ρ⟩ fun r => ∀ c : Dev nD,
      r.2.mem ((c.tc : Thread nD τ).loc main_v9) = kernelOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v9 (Pipeline.mem_restRefs_of main_v9 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.KernelRun

end
-- ==== Proof.RefRun.lean ====
/-
  The reference program's run, read back.

  The reference is a straight line of host operations. Its run ends with every buffer at the fold of the operations over the
  launch contents; this module reads that fold at the result. The line is cut into seven stretches, each read by itself
  from any contents it may start from, so that no stretch's reading mentions another stretch's operations:

    * the gather of each row's threshold (the probability at the row's own label), as one function `pOf` of the two
      arguments — the same chain of operations the kernel's program runs before its region, never opened here;
    * the selection words `selOf` (labels differ, entry above the row's threshold);
    * the row sums of the selected entries `sumOf`, the row-wise "or" of the selection `anyOf`;
    * the quotient `quotOf` (threshold over sum plus eps), the choice `pickOf` (the quotient where some column is
      selected, zero elsewhere), and the mean `meanOf` (the sum of the rows' contributions over 8192).

  The result is `refOut x0 x1 = meanOf (contribOf x0 x1 (pOf x0 x1))`.
-/
import proofs.«162843_j31791347925635_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The line of operations -/

/-- @main's 53 operations, in order (a called function's operations stand in its call's place). -/
abbrev ops : List (HloOp τ sig (Elt F)) :=
  [ unary main_arg1 main_v0 (broadcastInDim S8192x1 ![0] bcast_S8192_S8192x1_0 : (⟨S8192, .i32⟩ : BufTy).Contents (Elt F) → (⟨S8192x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S8192x1, .i32⟩) main_call0_v0) (broadcastInDim S8192x1 ![] bcast_S_S8192x1),
    TRef.binary (TRef.of (T := ⟨S8192x1, .i32⟩) main_v0) (TRef.of (T := ⟨S8192x1, .i32⟩) main_call0_v0) (TRef.of (T := ⟨S8192x1, .i1⟩) main_call0_v1) (cmpi .slt),
    TRef.nullary (TRef.of (T := ⟨S_, .i32⟩) main_call0_c_0) (constantI S_ 32 8192#32),
    TRef.unary (TRef.of (T := ⟨S_, .i32⟩) main_call0_c_0) (TRef.of (T := ⟨S8192x1, .i32⟩) main_call0_v2) (broadcastInDim S8192x1 ![] bcast_S_S8192x1),
    TRef.binary (TRef.of (T := ⟨S8192x1, .i32⟩) main_v0) (TRef.of (T := ⟨S8192x1, .i32⟩) main_call0_v2) (TRef.of (T := ⟨S8192x1, .i32⟩) main_call0_v3) addi,
    TRef.ternary (TRef.of (T := ⟨S8192x1, .i1⟩) main_call0_v1) (TRef.of (T := ⟨S8192x1, .i32⟩) main_call0_v3) (TRef.of (T := ⟨S8192x1, .i32⟩) main_v0) (TRef.of (T := ⟨S8192x1, .i32⟩) main_call0_v4) select,
    TRef.reshape (TRef.of (T := ⟨S8192x1, .i32⟩) main_call0_v4) (TRef.of (T := ⟨S8192x1x1, .i32⟩) main_call0_v5) rfl shapeCasts_S8192x1_S8192x1x1,
    TRef.nullary (TRef.of (T := ⟨S1, .i32⟩) main_call0_c_1) (constantI S1 32 8191#32),
    TRef.nullary (TRef.of (T := ⟨S_, .i32⟩) main_call0_c_2) (constantI S_ 32 0#32),
    TRef.unary (TRef.of (T := ⟨S_, .i32⟩) main_call0_c_2) (TRef.of (T := ⟨S8192x1x1, .i32⟩) main_call0_v6) (broadcastInDim S8192x1x1 ![] bcast_S_S8192x1x1),
    TRef.binary (TRef.of (T := ⟨S8192x1x1, .i32⟩) main_call0_v5) (TRef.of (T := ⟨S8192x1x1, .i32⟩) main_call0_v6) (TRef.of (T := ⟨S8192x1x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S8192x1x1, .i32⟩) main_call0_v9) (broadcastInDim S8192x1x1 ![0, 1, 2] bcast_S1x1x1_S8192x1x1_0_1_2),
    TRef.binary (TRef.of (T := ⟨S8192x1x1, .i32⟩) main_call0_v5) (TRef.of (T := ⟨S8192x1x1, .i32⟩) main_call0_v9) (TRef.of (T := ⟨S8192x1x1, .i1⟩) main_call0_v10) (cmpi .sle),
    TRef.binary (TRef.of (T := ⟨S8192x1x1, .i1⟩) main_call0_v7) (TRef.of (T := ⟨S8192x1x1, .i1⟩) main_call0_v10) (TRef.of (T := ⟨S8192x1x1, .i1⟩) main_call0_v11) andi,
    TRef.nullary (TRef.of (T := ⟨S_, .i1⟩) main_call0_c_3) (constantI S_ 1 1#1),
    TRef.binary (TRef.of (T := ⟨S8192x1x1, .i1⟩) main_call0_v11) (TRef.of (T := ⟨S_, .i1⟩) main_call0_c_3) (TRef.of (T := ⟨S8192x1, .i1⟩) main_call0_v12) (fun x v => Host.reduce IntOp.andi x v reducesTo_S8192x1x1_S8192x1_d2 h_S_),
    TRef.binary (TRef.of (T := ⟨S8192x8192, .f32⟩) main_arg0) (TRef.of (T := ⟨S8192x1x1, .i32⟩) main_call0_v5) (TRef.of (T := ⟨S8192x1, .f32⟩) main_call0_v13) (fun x i => Host.gather gather_S8192x8192_S8192x1x1_S8192x1_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S8192x1, .f32⟩) main_call0_v14) (broadcastInDim S8192x1 ![] bcast_S_S8192x1),
    TRef.ternary (TRef.of (T := ⟨S8192x1, .i1⟩) main_call0_v12) (TRef.of (T := ⟨S8192x1, .f32⟩) main_call0_v13) (TRef.of (T := ⟨S8192x1, .f32⟩) main_call0_v14) (TRef.of (T := ⟨S8192x1, .f32⟩) main_v1) select,
    reshape main_v1 main_v2 rfl shapeCasts_S8192x1_S8192,
    unary main_arg1 main_v3 (broadcastInDim S1x8192 ![1] bcast_S8192_S1x8192_1 : (⟨S8192, .i32⟩ : BufTy).Contents (Elt F) → (⟨S1x8192, .i32⟩ : BufTy).Contents (Elt F)),
    unary main_arg1 main_v4 (broadcastInDim S8192x1 ![0] bcast_S8192_S8192x1_0 : (⟨S8192, .i32⟩ : BufTy).Contents (Elt F) → (⟨S8192x1, .i32⟩ : BufTy).Contents (Elt F)),
    unary main_v3 main_v5 (broadcastInDim S8192x8192 ![0, 1] bcast_S1x8192_S8192x8192_0_1 : (⟨S1x8192, .i32⟩ : BufTy).Contents (Elt F) → (⟨S8192x8192, .i32⟩ : BufTy).Contents (Elt F)),
    unary main_v4 main_v6 (broadcastInDim S8192x8192 ![0, 1] bcast_S8192x1_S8192x8192_0_1 : (⟨S8192x1, .i32⟩ : BufTy).Contents (Elt F) → (⟨S8192x8192, .i32⟩ : BufTy).Contents (Elt F)),
    binary main_v5 main_v6 main_v7 (cmpi .ne : (⟨S8192x8192, .i32⟩ : BufTy).Contents (Elt F) → (⟨S8192x8192, .i32⟩ : BufTy).Contents (Elt F) → (⟨S8192x8192, .i1⟩ : BufTy).Contents (Elt F)),
    unary main_v2 main_v8 (broadcastInDim S8192x1 ![0] bcast_S8192_S8192x1_0 : (⟨S8192, .f32⟩ : BufTy).Contents (Elt F) → (⟨S8192x1, .f32⟩ : BufTy).Contents (Elt F)),
    unary main_v8 main_v9 (broadcastInDim S8192x8192 ![0, 1] bcast_S8192x1_S8192x8192_0_1 : (⟨S8192x1, .f32⟩ : BufTy).Contents (Elt F) → (⟨S8192x8192, .f32⟩ : BufTy).Contents (Elt F)),
    binary main_arg0 main_v9 main_v10 (cmpf .ogt : (⟨S8192x8192, .f32⟩ : BufTy).Contents (Elt F) → (⟨S8192x8192, .f32⟩ : BufTy).Contents (Elt F) → (⟨S8192x8192, .i1⟩ : BufTy).Contents (Elt F)),
    binary main_v7 main_v10 main_v11 (andi : (⟨S8192x8192, .i1⟩ : BufTy).Contents (Elt F) → (⟨S8192x8192, .i1⟩ : BufTy).Contents (Elt F) → (⟨S8192x8192, .i1⟩ : BufTy).Contents (Elt F)),
    nullary main_cst (constant S_ .f32 0x00000000#32),
    TRef.unary (TRef.of (T := ⟨S_, .f32⟩) main_cst) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v11) (TRef.of (T := ⟨S8192x8192, .f32⟩) main_arg0) (TRef.of (T := ⟨S8192x8192, .f32⟩) main_call1_v1) (TRef.of (T := ⟨S8192x8192, .f32⟩) main_v12) select,
    nullary main_cst_0 (constant S_ .f32 0x00000000#32),
    binary main_v12 main_cst_0 main_v13 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_c (constantI S_ 1 0#1),
    binary main_v11 main_c main_v14 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    nullary main_cst_1 (constant S_ .f32 0x2EDBE6FF#32),
    unary main_cst_1 main_v15 (broadcastInDim S8192 ![] bcast_S_S8192 : (⟨S_, .f32⟩ : BufTy).Contents (Elt F) → (⟨S8192, .f32⟩ : BufTy).Contents (Elt F)),
    binary main_v13 main_v15 main_v16 (addf : (⟨S8192, .f32⟩ : BufTy).Contents (Elt F) → (⟨S8192, .f32⟩ : BufTy).Contents (Elt F) → (⟨S8192, .f32⟩ : BufTy).Contents (Elt F)),
    binary main_v2 main_v16 main_v17 (Host.divf : (⟨S8192, .f32⟩ : BufTy).Contents (Elt F) → (⟨S8192, .f32⟩ : BufTy).Contents (Elt F) → (⟨S8192, .f32⟩ : BufTy).Contents (Elt F)),
    nullary main_cst_2 (constant S_ .f32 0x00000000#32),
    TRef.unary (TRef.of (T := ⟨S_, .f32⟩) main_cst_2) (TRef.of (T := ⟨S_, .f32⟩) main_call2_v0) id,
    TRef.unary (TRef.of (T := ⟨S_, .f32⟩) main_call2_v0) (TRef.of (T := ⟨S8192, .f32⟩) main_call2_v1) (broadcastInDim S8192 ![] bcast_S_S8192),
    TRef.ternary (TRef.of (T := ⟨S8192, .i1⟩) main_v14) (TRef.of (T := ⟨S8192, .f32⟩) main_v17) (TRef.of (T := ⟨S8192, .f32⟩) main_call2_v1) (TRef.of (T := ⟨S8192, .f32⟩) main_v18) select,
    nullary main_cst_3 (constant S_ .f32 0x00000000#32),
    binary main_v18 main_cst_3 main_v19 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_4 (constant S_ .f32 0x46000000#32),
    binary main_v19 main_cst_4 main_v20 (Host.divf : (⟨S_, .f32⟩ : BufTy).Contents (Elt F) → (⟨S_, .f32⟩ : BufTy).Contents (Elt F) → (⟨S_, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., unary_bufs_sub .., unary_bufs_sub .., unary_bufs_sub .., binary_bufs_sub .., unary_bufs_sub .., unary_bufs_sub .., binary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., unary_bufs_sub .., binary_bufs_sub .., binary_bufs_sub .., nullary_bufs_sub .., unary_bufs_sub .., unary_bufs_sub .., ternary_bufs_sub .., nullary_bufs_sub .., binary_bufs_sub .., nullary_bufs_sub .., binary_bufs_sub ..⟩

/-! ## The seven stretches -/

abbrev opsPre : List (HloOp τ sig (Elt F)) :=
  [ unary main_arg1 main_v0 (broadcastInDim S8192x1 ![0] bcast_S8192_S8192x1_0 : (⟨S8192, .i32⟩ : BufTy).Contents (Elt F) → (⟨S8192x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S8192x1, .i32⟩) main_call0_v0) (broadcastInDim S8192x1 ![] bcast_S_S8192x1),
    TRef.binary (TRef.of (T := ⟨S8192x1, .i32⟩) main_v0) (TRef.of (T := ⟨S8192x1, .i32⟩) main_call0_v0) (TRef.of (T := ⟨S8192x1, .i1⟩) main_call0_v1) (cmpi .slt),
    TRef.nullary (TRef.of (T := ⟨S_, .i32⟩) main_call0_c_0) (constantI S_ 32 8192#32),
    TRef.unary (TRef.of (T := ⟨S_, .i32⟩) main_call0_c_0) (TRef.of (T := ⟨S8192x1, .i32⟩) main_call0_v2) (broadcastInDim S8192x1 ![] bcast_S_S8192x1),
    TRef.binary (TRef.of (T := ⟨S8192x1, .i32⟩) main_v0) (TRef.of (T := ⟨S8192x1, .i32⟩) main_call0_v2) (TRef.of (T := ⟨S8192x1, .i32⟩) main_call0_v3) addi,
    TRef.ternary (TRef.of (T := ⟨S8192x1, .i1⟩) main_call0_v1) (TRef.of (T := ⟨S8192x1, .i32⟩) main_call0_v3) (TRef.of (T := ⟨S8192x1, .i32⟩) main_v0) (TRef.of (T := ⟨S8192x1, .i32⟩) main_call0_v4) select,
    TRef.reshape (TRef.of (T := ⟨S8192x1, .i32⟩) main_call0_v4) (TRef.of (T := ⟨S8192x1x1, .i32⟩) main_call0_v5) rfl shapeCasts_S8192x1_S8192x1x1,
    TRef.nullary (TRef.of (T := ⟨S1, .i32⟩) main_call0_c_1) (constantI S1 32 8191#32),
    TRef.nullary (TRef.of (T := ⟨S_, .i32⟩) main_call0_c_2) (constantI S_ 32 0#32),
    TRef.unary (TRef.of (T := ⟨S_, .i32⟩) main_call0_c_2) (TRef.of (T := ⟨S8192x1x1, .i32⟩) main_call0_v6) (broadcastInDim S8192x1x1 ![] bcast_S_S8192x1x1),
    TRef.binary (TRef.of (T := ⟨S8192x1x1, .i32⟩) main_call0_v5) (TRef.of (T := ⟨S8192x1x1, .i32⟩) main_call0_v6) (TRef.of (T := ⟨S8192x1x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S8192x1x1, .i32⟩) main_call0_v9) (broadcastInDim S8192x1x1 ![0, 1, 2] bcast_S1x1x1_S8192x1x1_0_1_2),
    TRef.binary (TRef.of (T := ⟨S8192x1x1, .i32⟩) main_call0_v5) (TRef.of (T := ⟨S8192x1x1, .i32⟩) main_call0_v9) (TRef.of (T := ⟨S8192x1x1, .i1⟩) main_call0_v10) (cmpi .sle),
    TRef.binary (TRef.of (T := ⟨S8192x1x1, .i1⟩) main_call0_v7) (TRef.of (T := ⟨S8192x1x1, .i1⟩) main_call0_v10) (TRef.of (T := ⟨S8192x1x1, .i1⟩) main_call0_v11) andi,
    TRef.nullary (TRef.of (T := ⟨S_, .i1⟩) main_call0_c_3) (constantI S_ 1 1#1),
    TRef.binary (TRef.of (T := ⟨S8192x1x1, .i1⟩) main_call0_v11) (TRef.of (T := ⟨S_, .i1⟩) main_call0_c_3) (TRef.of (T := ⟨S8192x1, .i1⟩) main_call0_v12) (fun x v => Host.reduce IntOp.andi x v reducesTo_S8192x1x1_S8192x1_d2 h_S_),
    TRef.binary (TRef.of (T := ⟨S8192x8192, .f32⟩) main_arg0) (TRef.of (T := ⟨S8192x1x1, .i32⟩) main_call0_v5) (TRef.of (T := ⟨S8192x1, .f32⟩) main_call0_v13) (fun x i => Host.gather gather_S8192x8192_S8192x1x1_S8192x1_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S8192x1, .f32⟩) main_call0_v14) (broadcastInDim S8192x1 ![] bcast_S_S8192x1),
    TRef.ternary (TRef.of (T := ⟨S8192x1, .i1⟩) main_call0_v12) (TRef.of (T := ⟨S8192x1, .f32⟩) main_call0_v13) (TRef.of (T := ⟨S8192x1, .f32⟩) main_call0_v14) (TRef.of (T := ⟨S8192x1, .f32⟩) main_v1) select,
    reshape main_v1 main_v2 rfl shapeCasts_S8192x1_S8192 ]

abbrev opsA : List (HloOp τ sig (Elt F)) :=
  [ unary main_arg1 main_v3 (broadcastInDim S1x8192 ![1] bcast_S8192_S1x8192_1 : (⟨S8192, .i32⟩ : BufTy).Contents (Elt F) → (⟨S1x8192, .i32⟩ : BufTy).Contents (Elt F)),
    unary main_arg1 main_v4 (broadcastInDim S8192x1 ![0] bcast_S8192_S8192x1_0 : (⟨S8192, .i32⟩ : BufTy).Contents (Elt F) → (⟨S8192x1, .i32⟩ : BufTy).Contents (Elt F)),
    unary main_v3 main_v5 (broadcastInDim S8192x8192 ![0, 1] bcast_S1x8192_S8192x8192_0_1 : (⟨S1x8192, .i32⟩ : BufTy).Contents (Elt F) → (⟨S8192x8192, .i32⟩ : BufTy).Contents (Elt F)),
    unary main_v4 main_v6 (broadcastInDim S8192x8192 ![0, 1] bcast_S8192x1_S8192x8192_0_1 : (⟨S8192x1, .i32⟩ : BufTy).Contents (Elt F) → (⟨S8192x8192, .i32⟩ : BufTy).Contents (Elt F)),
    binary main_v5 main_v6 main_v7 (cmpi .ne : (⟨S8192x8192, .i32⟩ : BufTy).Contents (Elt F) → (⟨S8192x8192, .i32⟩ : BufTy).Contents (Elt F) → (⟨S8192x8192, .i1⟩ : BufTy).Contents (Elt F)),
    unary main_v2 main_v8 (broadcastInDim S8192x1 ![0] bcast_S8192_S8192x1_0 : (⟨S8192, .f32⟩ : BufTy).Contents (Elt F) → (⟨S8192x1, .f32⟩ : BufTy).Contents (Elt F)),
    unary main_v8 main_v9 (broadcastInDim S8192x8192 ![0, 1] bcast_S8192x1_S8192x8192_0_1 : (⟨S8192x1, .f32⟩ : BufTy).Contents (Elt F) → (⟨S8192x8192, .f32⟩ : BufTy).Contents (Elt F)),
    binary main_arg0 main_v9 main_v10 (cmpf .ogt : (⟨S8192x8192, .f32⟩ : BufTy).Contents (Elt F) → (⟨S8192x8192, .f32⟩ : BufTy).Contents (Elt F) → (⟨S8192x8192, .i1⟩ : BufTy).Contents (Elt F)),
    binary main_v7 main_v10 main_v11 (andi : (⟨S8192x8192, .i1⟩ : BufTy).Contents (Elt F) → (⟨S8192x8192, .i1⟩ : BufTy).Contents (Elt F) → (⟨S8192x8192, .i1⟩ : BufTy).Contents (Elt F)) ]

abbrev opsB : List (HloOp τ sig (Elt F)) :=
  [ nullary main_cst (constant S_ .f32 0x00000000#32),
    TRef.unary (TRef.of (T := ⟨S_, .f32⟩) main_cst) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v11) (TRef.of (T := ⟨S8192x8192, .f32⟩) main_arg0) (TRef.of (T := ⟨S8192x8192, .f32⟩) main_call1_v1) (TRef.of (T := ⟨S8192x8192, .f32⟩) main_v12) select,
    nullary main_cst_0 (constant S_ .f32 0x00000000#32),
    binary main_v12 main_cst_0 main_v13 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]

abbrev opsC : List (HloOp τ sig (Elt F)) :=
  [ nullary main_c (constantI S_ 1 0#1),
    binary main_v11 main_c main_v14 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)) ]

abbrev opsD : List (HloOp τ sig (Elt F)) :=
  [ nullary main_cst_1 (constant S_ .f32 0x2EDBE6FF#32),
    unary main_cst_1 main_v15 (broadcastInDim S8192 ![] bcast_S_S8192 : (⟨S_, .f32⟩ : BufTy).Contents (Elt F) → (⟨S8192, .f32⟩ : BufTy).Contents (Elt F)),
    binary main_v13 main_v15 main_v16 (addf : (⟨S8192, .f32⟩ : BufTy).Contents (Elt F) → (⟨S8192, .f32⟩ : BufTy).Contents (Elt F) → (⟨S8192, .f32⟩ : BufTy).Contents (Elt F)),
    binary main_v2 main_v16 main_v17 (Host.divf : (⟨S8192, .f32⟩ : BufTy).Contents (Elt F) → (⟨S8192, .f32⟩ : BufTy).Contents (Elt F) → (⟨S8192, .f32⟩ : BufTy).Contents (Elt F)) ]

abbrev opsE : List (HloOp τ sig (Elt F)) :=
  [ nullary main_cst_2 (constant S_ .f32 0x00000000#32),
    TRef.unary (TRef.of (T := ⟨S_, .f32⟩) main_cst_2) (TRef.of (T := ⟨S_, .f32⟩) main_call2_v0) id,
    TRef.unary (TRef.of (T := ⟨S_, .f32⟩) main_call2_v0) (TRef.of (T := ⟨S8192, .f32⟩) main_call2_v1) (broadcastInDim S8192 ![] bcast_S_S8192),
    TRef.ternary (TRef.of (T := ⟨S8192, .i1⟩) main_v14) (TRef.of (T := ⟨S8192, .f32⟩) main_v17) (TRef.of (T := ⟨S8192, .f32⟩) main_call2_v1) (TRef.of (T := ⟨S8192, .f32⟩) main_v18) select ]

abbrev opsF : List (HloOp τ sig (Elt F)) :=
  [ nullary main_cst_3 (constant S_ .f32 0x00000000#32),
    binary main_v18 main_cst_3 main_v19 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_4 (constant S_ .f32 0x46000000#32),
    binary main_v19 main_cst_4 main_v20 (Host.divf : (⟨S_, .f32⟩ : BufTy).Contents (Elt F) → (⟨S_, .f32⟩ : BufTy).Contents (Elt F) → (⟨S_, .f32⟩ : BufTy).Contents (Elt F)) ]

set_option maxRecDepth 8192 in
/-- The line is the seven stretches one after the other. -/
theorem ops_split : (ops : List (HloOp τ sig (Elt F))) = opsPre ++ (opsA ++ (opsB ++ (opsC ++ (opsD ++ (opsE ++ opsF))))) := rfl

/-- The contents after two stretches are the contents after the second from the contents after the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## What each stretch computes -/

/-- Each row's threshold: the probability at the row's own label (jax's `take_along_axis`, with its index
    normalisation and its fill for an index out of range), as a vector over the rows. -/
def pOf (x0 : (⟨S8192x8192, .f32⟩ : BufTy).Contents (Elt F)) (x1 : (⟨S8192, .i32⟩ : BufTy).Contents (Elt F)) : (⟨S8192, .f32⟩ : BufTy).Contents (Elt F) :=
  (shapeCast _ (select (Host.reduce IntOp.andi (andi (cmpi .sge (shapeCast _ (select (cmpi .slt (broadcastInDim S8192x1 ![0] bcast_S8192_S8192x1_0 x1) (broadcastInDim S8192x1 ![] bcast_S_S8192x1 (constantI S_ 32 0#32))) (addi (broadcastInDim S8192x1 ![0] bcast_S8192_S8192x1_0 x1) (broadcastInDim S8192x1 ![] bcast_S_S8192x1 (constantI S_ 32 8192#32))) (broadcastInDim S8192x1 ![0] bcast_S8192_S8192x1_0 x1)) shapeCasts_S8192x1_S8192x1x1) (broadcastInDim S8192x1x1 ![] bcast_S_S8192x1x1 (constantI S_ 32 0#32))) (cmpi .sle (shapeCast _ (select (cmpi .slt (broadcastInDim S8192x1 ![0] bcast_S8192_S8192x1_0 x1) (broadcastInDim S8192x1 ![] bcast_S_S8192x1 (constantI S_ 32 0#32))) (addi (broadcastInDim S8192x1 ![0] bcast_S8192_S8192x1_0 x1) (broadcastInDim S8192x1 ![] bcast_S_S8192x1 (constantI S_ 32 8192#32))) (broadcastInDim S8192x1 ![0] bcast_S8192_S8192x1_0 x1)) shapeCasts_S8192x1_S8192x1x1) (broadcastInDim S8192x1x1 ![0, 1, 2] bcast_S1x1x1_S8192x1x1_0_1_2 (broadcastInDim S1x1x1 ![2] bcast_S1_S1x1x1_2 (constantI S1 32 8191#32))))) (constantI S_ 1 1#1) reducesTo_S8192x1x1_S8192x1_d2 h_S_) (Host.gather gather_S8192x8192_S8192x1x1_S8192x1_n_1_0_0_1_2_11 x0 (shapeCast _ (select (cmpi .slt (broadcastInDim S8192x1 ![0] bcast_S8192_S8192x1_0 x1) (broadcastInDim S8192x1 ![] bcast_S_S8192x1 (constantI S_ 32 0#32))) (addi (broadcastInDim S8192x1 ![0] bcast_S8192_S8192x1_0 x1) (broadcastInDim S8192x1 ![] bcast_S_S8192x1 (constantI S_ 32 8192#32))) (broadcastInDim S8192x1 ![0] bcast_S8192_S8192x1_0 x1)) shapeCasts_S8192x1_S8192x1x1)) (broadcastInDim S8192x1 ![] bcast_S_S8192x1 (constant S_ .f32 0x7FC00000#32))) shapeCasts_S8192x1_S8192)

/-- The selection words: column j of row i is selected when label j differs from label i and the entry exceeds
    row i's threshold. -/
def selOf (x0 : (⟨S8192x8192, .f32⟩ : BufTy).Contents (Elt F)) (x1 : (⟨S8192, .i32⟩ : BufTy).Contents (Elt F)) (p : (⟨S8192, .f32⟩ : BufTy).Contents (Elt F)) : (⟨S8192x8192, .i1⟩ : BufTy).Contents (Elt F) :=
  andi (cmpi .ne (broadcastInDim S8192x8192 ![0, 1] bcast_S1x8192_S8192x8192_0_1 (broadcastInDim S1x8192 ![1] bcast_S8192_S1x8192_1 x1)) (broadcastInDim S8192x8192 ![0, 1] bcast_S8192x1_S8192x8192_0_1 (broadcastInDim S8192x1 ![0] bcast_S8192_S8192x1_0 x1))) (cmpf .ogt x0 (broadcastInDim S8192x8192 ![0, 1] bcast_S8192x1_S8192x8192_0_1 (broadcastInDim S8192x1 ![0] bcast_S8192_S8192x1_0 p)))

/-- The row sums of the selected entries. -/
def sumOf (s : (⟨S8192x8192, .i1⟩ : BufTy).Contents (Elt F)) (x0 : (⟨S8192x8192, .f32⟩ : BufTy).Contents (Elt F)) : (⟨S8192, .f32⟩ : BufTy).Contents (Elt F) :=
  Host.reduceAdd (select s x0 (broadcastInDim S8192x8192 ![] bcast_S_S8192x8192 (id (constant S_ .f32 0x00000000#32)))) (constant S_ .f32 0x00000000#32) reducesTo_S8192x8192_S8192_d1 h_S_

/-- Row by row, whether some column is selected. -/
def anyOf (s : (⟨S8192x8192, .i1⟩ : BufTy).Contents (Elt F)) : (⟨S8192, .i1⟩ : BufTy).Contents (Elt F) :=
  Host.reduce IntOp.ori s (constantI S_ 1 0#1) reducesTo_S8192x8192_S8192_d1 h_S_

/-- The threshold over the sum plus eps. -/
def quotOf (p : (⟨S8192, .f32⟩ : BufTy).Contents (Elt F)) (d : (⟨S8192, .f32⟩ : BufTy).Contents (Elt F)) : (⟨S8192, .f32⟩ : BufTy).Contents (Elt F) :=
  Host.divf p (addf d (broadcastInDim S8192 ![] bcast_S_S8192 (constant S_ .f32 0x2EDBE6FF#32)))

/-- The quotient where some column is selected, zero elsewhere. -/
def pickOf (a : (⟨S8192, .i1⟩ : BufTy).Contents (Elt F)) (q : (⟨S8192, .f32⟩ : BufTy).Contents (Elt F)) : (⟨S8192, .f32⟩ : BufTy).Contents (Elt F) :=
  select a q (broadcastInDim S8192 ![] bcast_S_S8192 (id (constant S_ .f32 0x00000000#32)))

/-- The sum of the rows' contributions over 8192. -/
def meanOf (y : (⟨S8192, .f32⟩ : BufTy).Contents (Elt F)) : (⟨S_, .f32⟩ : BufTy).Contents (Elt F) :=
  Host.divf (Host.reduceAdd y (constant S_ .f32 0x00000000#32) reducesTo_S8192_S_d0 h_S_) (constant S_ .f32 0x46000000#32)

/-- The rows' contributions from the arguments and the thresholds. -/
def contribOf (x0 : (⟨S8192x8192, .f32⟩ : BufTy).Contents (Elt F)) (x1 : (⟨S8192, .i32⟩ : BufTy).Contents (Elt F)) (p : (⟨S8192, .f32⟩ : BufTy).Contents (Elt F)) : (⟨S8192, .f32⟩ : BufTy).Contents (Elt F) :=
  pickOf (anyOf (selOf x0 x1 p)) (quotOf p (sumOf (selOf x0 x1 p) x0))

/-- The reference's result as a function of its arguments. -/
def refOut (x0 : (⟨S8192x8192, .f32⟩ : BufTy).Contents (Elt F)) (x1 : (⟨S8192, .i32⟩ : BufTy).Contents (Elt F)) : (⟨S_, .f32⟩ : BufTy).Contents (Elt F) :=
  meanOf (contribOf x0 x1 (pOf x0 x1))

/-! ## Each stretch read from any contents -/

theorem opsPre_v2 (V : Valuation τ sig (Elt F)) :
    after opsPre V (Proc.devRef .tc main_v2) = pOf (V (Proc.devRef .tc main_arg0)) (V (Proc.devRef .tc main_arg1)) := by
  after_results_simp
  try simp only [TRef.toBuf, TRef.ofBuf, cast_eq]
  unfold pOf
  rfl

theorem opsPre_keeps_main_arg0 (V : Valuation τ sig (Elt F)) :
    after opsPre V (Proc.devRef .tc main_arg0) = V (Proc.devRef .tc main_arg0) := by
  after_results_simp <;> rfl

theorem opsPre_keeps_main_arg1 (V : Valuation τ sig (Elt F)) :
    after opsPre V (Proc.devRef .tc main_arg1) = V (Proc.devRef .tc main_arg1) := by
  after_results_simp <;> rfl

theorem opsA_v11 (V : Valuation τ sig (Elt F)) :
    after opsA V (Proc.devRef .tc main_v11) = selOf (V (Proc.devRef .tc main_arg0)) (V (Proc.devRef .tc main_arg1)) (V (Proc.devRef .tc main_v2)) := by
  after_results_simp
  try simp only [TRef.toBuf, TRef.ofBuf, cast_eq]
  unfold selOf
  rfl

theorem opsA_keeps_main_arg0 (V : Valuation τ sig (Elt F)) :
    after opsA V (Proc.devRef .tc main_arg0) = V (Proc.devRef .tc main_arg0) := by
  after_results_simp <;> rfl

theorem opsA_keeps_main_v2 (V : Valuation τ sig (Elt F)) :
    after opsA V (Proc.devRef .tc main_v2) = V (Proc.devRef .tc main_v2) := by
  after_results_simp <;> rfl

theorem opsB_v13 (V : Valuation τ sig (Elt F)) :
    after opsB V (Proc.devRef .tc main_v13) = sumOf (V (Proc.devRef .tc main_v11)) (V (Proc.devRef .tc main_arg0)) := by
  after_results_simp
  try simp only [TRef.toBuf, TRef.ofBuf, cast_eq]
  unfold sumOf
  rfl

theorem opsB_keeps_main_v11 (V : Valuation τ sig (Elt F)) :
    after opsB V (Proc.devRef .tc main_v11) = V (Proc.devRef .tc main_v11) := by
  after_results_simp <;> rfl

theorem opsB_keeps_main_v2 (V : Valuation τ sig (Elt F)) :
    after opsB V (Proc.devRef .tc main_v2) = V (Proc.devRef .tc main_v2) := by
  after_results_simp <;> rfl

theorem opsC_v14 (V : Valuation τ sig (Elt F)) :
    after opsC V (Proc.devRef .tc main_v14) = anyOf (V (Proc.devRef .tc main_v11)) := by
  after_results_simp
  try simp only [TRef.toBuf, TRef.ofBuf, cast_eq]
  unfold anyOf
  rfl

theorem opsC_keeps_main_v13 (V : Valuation τ sig (Elt F)) :
    after opsC V (Proc.devRef .tc main_v13) = V (Proc.devRef .tc main_v13) := by
  after_results_simp <;> rfl

theorem opsC_keeps_main_v2 (V : Valuation τ sig (Elt F)) :
    after opsC V (Proc.devRef .tc main_v2) = V (Proc.devRef .tc main_v2) := by
  after_results_simp <;> rfl

theorem opsD_v17 (V : Valuation τ sig (Elt F)) :
    after opsD V (Proc.devRef .tc main_v17) = quotOf (V (Proc.devRef .tc main_v2)) (V (Proc.devRef .tc main_v13)) := by
  after_results_simp
  try simp only [TRef.toBuf, TRef.ofBuf, cast_eq]
  unfold quotOf
  rfl

theorem opsD_keeps_main_v14 (V : Valuation τ sig (Elt F)) :
    after opsD V (Proc.devRef .tc main_v14) = V (Proc.devRef .tc main_v14) := by
  after_results_simp <;> rfl

theorem opsE_v18 (V : Valuation τ sig (Elt F)) :
    after opsE V (Proc.devRef .tc main_v18) = pickOf (V (Proc.devRef .tc main_v14)) (V (Proc.devRef .tc main_v17)) := by
  after_results_simp
  try simp only [TRef.toBuf, TRef.ofBuf, cast_eq]
  unfold pickOf
  rfl

theorem opsF_v20 (V : Valuation τ sig (Elt F)) :
    after opsF V (Proc.devRef .tc main_v20) = meanOf (V (Proc.devRef .tc main_v18)) := by
  after_results_simp
  try simp only [TRef.toBuf, TRef.ofBuf, cast_eq]
  unfold meanOf
  rfl

/-! ## The whole line -/

/-- The result buffer after the whole line, from any contents: `refOut` of the two arguments. -/
theorem result_eq (V : Valuation τ sig (Elt F)) :
    after ops V (Proc.devRef .tc main_v20) = refOut (V (Proc.devRef .tc main_arg0)) (V (Proc.devRef .tc main_arg1)) := by
  rw [ops_split]
  simp only [after_append]
  rw [opsF_v20, opsE_v18, opsD_v17, opsD_keeps_main_v14, opsC_v14, opsC_keeps_main_v13, opsC_keeps_main_v2, opsB_v13,
    opsB_keeps_main_v11, opsB_keeps_main_v2, opsA_v11, opsA_keeps_main_arg0, opsA_keeps_main_v2, opsPre_v2,
    opsPre_keeps_main_arg0, opsPre_keeps_main_arg1]
  rfl

set_option maxRecDepth 8192 in
/-- On every device, from any memory with zero counters: every weakly fair execution of @main terminates with the result at
    `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v20).trans (result_eq (launchContents m c)),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefRun

end
-- ==== Proof.RefRows.lean ====
/-
  The reference's stages read at a row.

  At the ideal values the reference's selection word at (i, j) is the word of label j, label i, the entry and row i's
  threshold; its row-wise "or" is the fold of "or" over the row's words; its row sum is the sum over the columns (the
  initial value is zero); so the contribution vector at row i is `rowTerm` of row i — the same function of the row the
  kernel's body stores.
-/
import proofs.«162843_j31791347925635_2_alg».proof.Proof.RefRun
import proofs.«162843_j31791347925635_2_alg».proof.Proof.RowMath
import Idealize.ShloMosaic.Lib.Pipeline.Value
import Idealize.ShloMosaic.Lib.ValueIdx
import Idealize.ShloMosaic.PureOps.Ideal.Laws

noncomputable section

open scoped BigOperators

namespace Cert.ReferenceIdeal.RefRows

open Cert.ReferenceIdeal Cert.ReferenceIdeal.Gen Cert.ReferenceIdeal.RefRun Idealize.ShloMosaic Idealize.ShloMosaic.ValueIdx
  Cert.MaskedRows

section Layout
variable {α : Type}

/-- A vector laid along the columns and repeated down the rows: entry (i, j) is the vector's entry j. -/
theorem bcast_row_apply (u : S8192.Idx → α) (i j : Fin 8192) :
    broadcastInDim S8192x8192 ![0, 1] bcast_S1x8192_S8192x8192_0_1 (broadcastInDim S1x8192 ![1] bcast_S8192_S1x8192_1 u) (ix2 i j)
      = u (ix1 j) := by
  refine (broadcastInDim_apply _ bcast_S1x8192_S8192x8192_0_1 _ (ix2 i j) (ix2 (0 : Fin 1) j) (fun a => match a with
    | ⟨0, _⟩ => by show 0 = if (1 : Nat) = 1 then 0 else i.val; rw [if_pos rfl]
    | ⟨1, _⟩ => by show j.val = if (8192 : Nat) = 1 then 0 else j.val; rw [if_neg (by decide)])).trans ?_
  exact broadcastInDim_apply _ bcast_S8192_S1x8192_1 u (ix2 (0 : Fin 1) j) (ix1 j) (fun a => match a with
    | ⟨0, _⟩ => by show j.val = if (8192 : Nat) = 1 then 0 else j.val; rw [if_neg (by decide)])

/-- A vector laid down the rows and repeated along the columns: entry (i, j) is the vector's entry i. -/
theorem bcast_col_apply (u : S8192.Idx → α) (i j : Fin 8192) :
    broadcastInDim S8192x8192 ![0, 1] bcast_S8192x1_S8192x8192_0_1 (broadcastInDim S8192x1 ![0] bcast_S8192_S8192x1_0 u) (ix2 i j)
      = u (ix1 i) := by
  refine (broadcastInDim_apply _ bcast_S8192x1_S8192x8192_0_1 _ (ix2 i j) (ix2 i (0 : Fin 1)) (fun a => match a with
    | ⟨0, _⟩ => by show i.val = if (8192 : Nat) = 1 then 0 else i.val; rw [if_neg (by decide)]
    | ⟨1, _⟩ => by show 0 = if (1 : Nat) = 1 then 0 else j.val; rw [if_pos rfl])).trans ?_
  exact broadcastInDim_apply _ bcast_S8192_S8192x1_0 u (ix2 i (0 : Fin 1)) (ix1 i) (fun a => match a with
    | ⟨0, _⟩ => by show i.val = if (8192 : Nat) = 1 then 0 else i.val; rw [if_neg (by decide)])

end Layout

/-- The reference's selection word at (i, j). -/
theorem selOf_apply (x0 : FVec Ideal S8192x8192 .f32) (x1 : IVec S8192 32) (p : FVec Ideal S8192 .f32) (i j : Fin 8192) :
    selOf (F := Ideal) x0 x1 p (ix2 i j) = selWord (x1 (ix1 j)) (x1 (ix1 i)) (x0 (ix2 i j)) (p (ix1 i)) := by
  unfold selOf
  show IntOp.andi
      (IntOp.cmpi .ne
        (broadcastInDim S8192x8192 ![0, 1] bcast_S1x8192_S8192x8192_0_1 (broadcastInDim S1x8192 ![1] bcast_S8192_S1x8192_1 x1) (ix2 i j))
        (broadcastInDim S8192x8192 ![0, 1] bcast_S8192x1_S8192x8192_0_1 (broadcastInDim S8192x1 ![0] bcast_S8192_S8192x1_0 x1) (ix2 i j)))
      (Ideal.cmp .ogt (x0 (ix2 i j))
        (broadcastInDim S8192x8192 ![0, 1] bcast_S8192x1_S8192x8192_0_1 (broadcastInDim S8192x1 ![0] bcast_S8192_S8192x1_0 p) (ix2 i j))) = _
  rw [bcast_row_apply x1 i j, bcast_col_apply x1 i j, bcast_col_apply p i j]
  rfl

/-- The host's sum along the rows from zero, at row i: the sum over the columns. -/
theorem hostRowSum_apply (y : FVec Ideal S8192x8192 .f32) (i : Fin 8192) :
    Host.reduceAdd (F := Ideal) y (constant S_ .f32 0x00000000#32) reducesTo_S8192x8192_S8192_d1 h_S_ (ix1 i)
      = ∑ k : Fin 8192, y (ix2 i k) := by
  simp only [Host.reduceAdd, Ideal.hostReduceAdd_def]
  rw [Ideal.hostReduceAdd_single reducesTo_S8192x8192_S8192_d1 (by decide)]
  refine (congrArg (· + _) (show constant (F := Ideal) S_ .f32 0x00000000#32 (Shape.Idx.first h_S_) = 0 from Ideal.ofBits_zero_f32)).trans ?_
  rw [zero_add]
  refine Finset.sum_congr rfl fun k _ => ?_
  exact congrArg y (funext fun a => Fin.ext (by match a with | ⟨0, _⟩ => rfl | ⟨1, _⟩ => rfl))

/-- The host's "or" along the rows from false, at row i: the fold of "or" over the columns. -/
theorem hostRowAny_apply (s : IVec S8192x8192 1) (i : Fin 8192) :
    Host.reduce IntOp.ori s (constantI S_ 1 0#1) reducesTo_S8192x8192_S8192_d1 h_S_ (ix1 i)
      = (Finset.univ : Finset (Fin 8192)).fold IntOp.ori 0#1 fun k => s (ix2 i k) := by
  refine (Host.reduce_eq_fold_single IntOp.ori s (constantI S_ 1 0#1) reducesTo_S8192x8192_S8192_d1 (by decide) h_S_ (ix1 i)).trans ?_
  exact Finset.fold_congr fun k _ => congrArg s (funext fun a => Fin.ext (by match a with | ⟨0, _⟩ => rfl | ⟨1, _⟩ => rfl))

/-- The reference's contribution vector at row i is the row's contribution. -/
theorem contribOf_apply (x0 : FVec Ideal S8192x8192 .f32) (x1 : IVec S8192 32) (p : FVec Ideal S8192 .f32) (i : Fin 8192) :
    contribOf (F := Ideal) x0 x1 p (ix1 i)
      = rowTerm (fun j : Fin 8192 => x1 (ix1 j)) (x1 (ix1 i)) (fun j : Fin 8192 => x0 (ix2 i j)) (p (ix1 i)) := by
  have hsel := selOf_apply x0 x1 p i
  have hany : anyOf (F := Ideal) (selOf x0 x1 p) (ix1 i)
      = (Finset.univ : Finset (Fin 8192)).fold IntOp.ori 0#1 fun j => selWord (x1 (ix1 j)) (x1 (ix1 i)) (x0 (ix2 i j)) (p (ix1 i)) := by
    unfold anyOf
    refine (hostRowAny_apply _ i).trans ?_
    exact Finset.fold_congr fun k _ => hsel k
  have hsum : sumOf (F := Ideal) (selOf x0 x1 p) x0 (ix1 i)
      = ∑ j : Fin 8192, Scalar.select (selWord (x1 (ix1 j)) (x1 (ix1 i)) (x0 (ix2 i j)) (p (ix1 i))) (x0 (ix2 i j))
          (Ideal.ofBits .f32 0x00000000#32) := by
    unfold sumOf
    refine (hostRowSum_apply _ i).trans ?_
    refine Finset.sum_congr rfl fun k _ => ?_
    refine (select_apply _ _ _ (ix2 i k)).trans ?_
    rw [hsel k]
    rfl
  unfold contribOf pickOf quotOf
  show Scalar.select (anyOf (F := Ideal) (selOf x0 x1 p) (ix1 i))
      (Ideal.div (p (ix1 i)) (sumOf (F := Ideal) (selOf x0 x1 p) x0 (ix1 i) + Ideal.ofBits .f32 0x2EDBE6FF#32))
      (Ideal.ofBits .f32 0x00000000#32) = _
  rw [hany, hsum]
  rfl

end Cert.ReferenceIdeal.RefRows

end
-- ==== Proof.Bridge.lean ====
/-
  The two programs compute one function.

  The kernel's result is the mean of the result column reshaped to a vector; the column's entry at row i is the contribution
  of row i read from the probability matrix, the labels reshaped to a column and to a row, and the thresholds reshaped to a
  column. The reference's result is the mean of its contribution vector, whose entry at row i is the contribution of row i
  read from the matrix, the label vector and the threshold vector. A reshape between a vector and a column or a row keeps
  every entry, the thresholds are gathered by the same chain of operations on both sides, and the mean is the same
  operations: the results are equal, on every input.
-/
import proofs.«162843_j31791347925635_2_alg».proof.Proof.KernelRun
import proofs.«162843_j31791347925635_2_alg».proof.Proof.RefRows
import Idealize.ShloMosaic.Lib.ValueLayout

noncomputable section

namespace Cert.Proof.Bridge

open Idealize.ShloMosaic Idealize.ShloMosaic.ValueIdx Cert.MaskedRows

/-- A column [a, 1] viewed as a vector [a]: entry i is the column's entry (i, 0). -/
theorem uncol_apply {α : Type} {a : Nat} (v : (⟨2, ![a, 1]⟩ : Shape).Idx → α) (h : (⟨2, ![a, 1]⟩ : Shape).ShapeCasts ⟨1, ![a]⟩)
    (i : Fin a) : shapeCast ⟨1, ![a]⟩ v h (ix1 i) = v (ix2 i (0 : Fin 1)) :=
  shapeCast_apply v h (ix1 i) (ix2 i (0 : Fin 1)) (by
    rw [Shape.rowMajor_val_two, Shape.rowMajor_val_one]
    show i.val * 1 + 0 = i.val
    omega)

/-- The thresholds are gathered by the same chain of operations in both programs. -/
theorem pOf_eq (x0 : FVec Ideal Cert.KernelIdeal.S8192x8192 .f32) (x1 : IVec Cert.KernelIdeal.S8192 32) :
    Cert.KernelIdeal.HostSide.pOf (F := Ideal) x0 x1 = Cert.ReferenceIdeal.RefRun.pOf (F := Ideal) x0 x1 := by
  delta Cert.KernelIdeal.HostSide.pOf Cert.ReferenceIdeal.RefRun.pOf
  rfl

/-- The mean is the same operations in both programs. -/
theorem meanOf_eq (y : FVec Ideal Cert.KernelIdeal.S8192 .f32) :
    Cert.KernelIdeal.HostSide.meanOf (F := Ideal) y = Cert.ReferenceIdeal.RefRun.meanOf (F := Ideal) y := by
  delta Cert.KernelIdeal.HostSide.meanOf Cert.ReferenceIdeal.RefRun.meanOf
  rfl

/-- The kernel's result column, reshaped to a vector, is the reference's contribution vector. -/
theorem rows_eq (x0 : FVec Ideal Cert.KernelIdeal.S8192x8192 .f32) (x1 : IVec Cert.KernelIdeal.S8192 32)
    (p : FVec Ideal Cert.KernelIdeal.S8192 .f32)
    (h1 : Cert.KernelIdeal.S8192.ShapeCasts Cert.KernelIdeal.S8192x1) (h2 : Cert.KernelIdeal.S8192.ShapeCasts Cert.KernelIdeal.S1x8192)
    (h3 : Cert.KernelIdeal.S8192x1.ShapeCasts Cert.KernelIdeal.S8192) :
    shapeCast Cert.KernelIdeal.S8192
        (Cert.KernelIdeal.RowArray.rowsOf x0 (shapeCast Cert.KernelIdeal.S8192x1 x1 h1) (shapeCast Cert.KernelIdeal.S1x8192 x1 h2)
          (shapeCast Cert.KernelIdeal.S8192x1 p h1)) h3
      = Cert.ReferenceIdeal.RefRun.contribOf (F := Ideal) x0 x1 p := by
  funext i
  obtain ⟨a, rfl⟩ : ∃ a : Fin 8192, i = ix1 a := ⟨i 0, eq_ix1 i⟩
  refine (uncol_apply _ h3 a).trans ?_
  refine Eq.trans ?_ (Cert.ReferenceIdeal.RefRows.contribOf_apply x0 x1 p a).symm
  unfold Cert.KernelIdeal.RowArray.rowsOf
  exact Cert.KernelIdeal.RowArray.rowTerm_congr (funext fun j => shapeCast_a_1a_apply x1 h2 (0 : Fin 1) j)
    (Keepdims.cast_col_apply x1 h1 a (0 : Fin 1)) rfl (Keepdims.cast_col_apply p h1 a (0 : Fin 1))

/-- The two programs' results are one function of the arguments. -/
theorem out_eq (x0 : FVec Ideal Cert.KernelIdeal.S8192x8192 .f32) (x1 : IVec Cert.KernelIdeal.S8192 32) :
    Cert.KernelIdeal.KernelRun.kernelOut x0 x1 = Cert.ReferenceIdeal.RefRun.refOut (F := Ideal) x0 x1 := by
  unfold Cert.KernelIdeal.KernelRun.kernelOut Cert.ReferenceIdeal.RefRun.refOut
  exact (congrArg (Cert.KernelIdeal.HostSide.meanOf (F := Ideal)) (rows_eq x0 x1 _ _ _ _)).trans
    ((meanOf_eq _).trans (congrArg (fun p => Cert.ReferenceIdeal.RefRun.meanOf (F := Ideal)
      (Cert.ReferenceIdeal.RefRun.contribOf (F := Ideal) x0 x1 p)) (pOf_eq x0 x1)))

end Cert.Proof.Bridge

end
-- ==== Proof.lean ====
/-
  A ranking loss over a batch: for each row i of an 8192 × 8192 probability matrix, with threshold p_i the probability at
  the row's own label, the entries of the row that exceed p_i at columns whose label differs from the row's are summed,
  and the row contributes p_i / (sum + eps) if there is such an entry and 0 otherwise; the result is the sum of the
  contributions over 8192.

  The kernel gathers the thresholds on the host, computes the contributions in a Pallas region, 512 rows per grid point
  (Proof/BlockRows.lean: a block's stored value at a row; Proof/KernelArray.lean: the 16 blocks tile the result column),
  and takes the mean on the host (Proof/KernelHost.lean, Proof/KernelRun.lean). The reference does all of it on the host
  over whole arrays (Proof/RefRun.lean: its run read back; Proof/RefRows.lean: its contribution vector at a row). Both
  read, at row i, the same function of the row (Proof/RowMath.lean: `rowTerm`; the kernel tests "some entry selected" by
  a maximum of indicators, the reference by an "or", and these agree), the thresholds come from the same chain of
  operations, and the final mean is the same operations (Proof/Bridge.lean). No law of the extended reals beyond these
  rewritings is used, so the precondition is never opened.

  The three frames are the generated frame certificates of the two kernel programs and the reference's run with the
  result dropped; the ideal pass rewrote nothing, so `preserves` is trivial.
-/
import proofs.«162843_j31791347925635_2_alg».proof.Defs
import proofs.«162843_j31791347925635_2_alg».proof.Proof.Gen.Kernel
import proofs.«162843_j31791347925635_2_alg».proof.Proof.Gen.Kernel.Skeleton
import proofs.«162843_j31791347925635_2_alg».proof.Proof.Gen.Kernel.Launch
import proofs.«162843_j31791347925635_2_alg».proof.Proof.Gen.Kernel.Points
import proofs.«162843_j31791347925635_2_alg».proof.Proof.Gen.Kernel.Frame
import proofs.«162843_j31791347925635_2_alg».proof.Proof.Gen.KernelIdeal
import proofs.«162843_j31791347925635_2_alg».proof.Proof.Gen.KernelIdeal.Skeleton
import proofs.«162843_j31791347925635_2_alg».proof.Proof.Gen.KernelIdeal.Launch
import proofs.«162843_j31791347925635_2_alg».proof.Proof.Gen.KernelIdeal.Points
import proofs.«162843_j31791347925635_2_alg».proof.Proof.Gen.KernelIdeal.Frame
import proofs.«162843_j31791347925635_2_alg».proof.Proof.Gen.ReferenceIdeal
import proofs.«162843_j31791347925635_2_alg».proof.Proof.Gen.Pre_finite_inputs
import proofs.«162843_j31791347925635_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both programs end with the mean of the rows' contributions of arguments that agree: one function. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact (Cert.Proof.Bridge.out_eq _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
